-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x3072 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S512x1024 : Shape := ⟨2, ![512, 1024]⟩
abbrev S512x3072 : Shape := ⟨2, ![512, 3072]⟩
abbrev S1x1024 : Shape := ⟨2, ![1, 1024]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S1x256 : Shape := ⟨2, ![1, 256]⟩
abbrev S1x256x1 : Shape := ⟨3, ![1, 256, 1]⟩
abbrev S256x1024 : Shape := ⟨2, ![256, 1024]⟩

abbrev nBuf : Space → Nat
  | .hbm => 17
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S1024x3072, .bf16⟩
  | .hbm, ⟨7, _⟩ => ⟨S1024x1024, .bf16⟩
  | .hbm, ⟨8, _⟩ => ⟨S1x3072, .f32⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S4x2048x1024, .bf16⟩
  | .hbm, ⟨13, _⟩ => ⟨S4x2048x1024, .bf16⟩
  | .hbm, ⟨14, _⟩ => ⟨S4x2048x1024, .bf16⟩
  | .hbm, ⟨15, _⟩ => ⟨S1x1024, .f32⟩
  | .hbm, ⟨16, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1024x1024, .bf16⟩
  | .local _ .vmem, ⟨17, _⟩ => ⟨S1x1024, .f32⟩
  | .local _ .vmem, ⟨18, _⟩ => ⟨S1x256x1024, .f32⟩
  | .local _ .vmem, ⟨19, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x1024_S8192x1024 : S4x2048x1024.ShapeCasts S8192x1024
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S8192x1024_S4x2048x1024 : S8192x1024.ShapeCasts S4x2048x1024
  shapeCasts_S1024_S1x1024 : S1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S1x256x1024 : S1x256x1024.ShapeCasts S1x256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S1x2048x1024 : S1x2048x1024.ShapeCasts S1x2048x1024
  reduces_S1x256x2048_S1x256 : S1x256x2048.Reduces [2] S1x256
  shapeCasts_S1x256_S1x256x1 : S1x256.ShapeCasts S1x256x1
  broadcasts_S1x256x1_S1x256x2048 : S1x256x1.Broadcasts S1x256x2048
  broadcasts_S1x256x1_S1x256x1024 : S1x256x1.Broadcasts S1x256x1024
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S1x256x1024 : S256x1024.ShapeCasts S1x256x1024
  dot_S512x1024_S1024x3072_S512x3072_1_0_0_1_n_n_wf : DotDims.WF S512x1024 S1024x3072 S512x3072 [1] [0] [0] [1] [] []
  dot_S1x256x1024_S1x2048x1024_S1x256x2048_2_2_1_1_0_0_wf : DotDims.WF S1x256x1024 S1x2048x1024 S1x256x2048 [2] [2] [1] [1] [0] [0]
  dot_S1x256x2048_S1x2048x1024_S1x256x1024_2_1_1_2_0_0_wf : DotDims.WF S1x256x2048 S1x2048x1024 S1x256x1024 [2] [1] [1] [2] [0] [0]
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S4x2048x1024.size a
  hwx1_5 : ∀ i : grid1.Coords, EltTy.bits .f32 = 32 ∨ (Rect.block (s := S4x2048x1024) S1x256x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1x256x1024_S1x2048x1024_S1x256x2048_2_2_1_1_0_0 : DotDims S1x256x1024 S1x2048x1024 S1x256x2048 where
  lhsContracting := [2]
  rhsContracting := [2]
  lhsNonContracting := [1]
  rhsNonContracting := [1]
  lhsBatch := [0]
  rhsBatch := [0]
  wf := dot_S1x256x1024_S1x2048x1024_S1x256x2048_2_2_1_1_0_0_wf
def dot_S1x256x2048_S1x2048x1024_S1x256x1024_2_1_1_2_0_0 : DotDims S1x256x2048 S1x2048x1024 S1x256x1024 where
  lhsContracting := [2]
  rhsContracting := [1]
  lhsNonContracting := [1]
  rhsNonContracting := [2]
  lhsBatch := [0]
  rhsBatch := [0]
  wf := dot_S1x256x2048_S1x2048x1024_S1x256x1024_2_1_1_2_0_0_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x2048, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S4x2048, .f32⟩
  | .hbm, ⟨18, _⟩ => ⟨S_, .f32⟩
  | .hbm, ⟨19, _⟩ => ⟨S4x2048, .f32⟩
  | .hbm, ⟨20, _⟩ => ⟨S4x2048, .f32⟩
  | .hbm, ⟨21, _⟩ => ⟨S4x2048x1, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S4x2048x1024, .f32⟩
  | .hbm, ⟨31, _⟩ => ⟨S4x2048x1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x3072_S4x2048x3072_2_0_01_1_n_n_wf : DotDims.WF S4x2048x1024 S1024x3072 S4x2048x3072 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x1024_S1024x1024_S4x2048x1024_2_0_01_1_n_n_wf : DotDims.WF S4x2048x1024 S1024x1024 S4x2048x1024 [2] [0] [0, 1] [1] [] []

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf

class Facts : Prop extends Facts₀ where

variable [Facts]
-- ==== Proof.RunValue.lean ====
/-
  The run of the kernel program, with its result buffer named.

  The program's entry function is two pipelined regions among stretches of array operations: a first stretch, the
  first region, a second stretch, the second region. The contents of a core's buffers at the four boundaries are a
  fold from the launch memory: through the first stretch's operations; then the first region's arrays replaced by
  what its write-backs leave, every other buffer as it was; through the second stretch's operations; then the
  second region's arrays replaced by what its write-backs leave, every other buffer as it was. Call the last
  boundary's contents W4.

  The theorem: from any launch memory with all counters at zero, every weakly fair execution of the program on the
  cores terminates and none faults; in every final state the five argument arrays hold what they held at launch,
  and the result buffer holds W4's contents at that buffer. The argument arrays are written by no operation and by
  no region, so the fold at their buffers walks back to the launch memory; the result buffer is an array of the
  second region, so W4 there is what that region's write-backs leave.
-/
import proofs.«132469_j61572651155726_2_alg».proof.Proof.Gen.KernelIdeal.Frame

set_option maxRecDepth 16384

noncomputable section

namespace Cert.KernelIdeal.RunValue

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- Every weakly fair execution of the two-region program terminates without a fault; in every final state each
    core's result buffer holds the last boundary's contents at that buffer — the fold of the launch memory through
    the first stretch of operations, the first region's arrays, the second stretch and the second region's arrays —
    and each of the five argument arrays holds what it held at launch. Each core ends holding every buffer that
    outlives the regions at the last boundary's contents; that state is read against the final memory, buffer by
    buffer, and the six buffers named here are among them. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v9) = Cert.KernelIdeal.Gen.W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.RunValue

end
-- ==== Proof.Spec.lean ====
/-
  Self-attention with a fused input projection and an output projection, as one function of the five argument
  arrays, in the two arrangements the two programs compute.

  From x (4 batches of 2048 tokens of 1024 features), a weight matrix W (1024 x 3072) and a bias (3072), the fused
  projection is  proj b s j = (∑ i, x b s i * W i j) + bias j ;  its columns 0..1023 are the queries, 1024..2047 the
  keys, 2048..3071 the values. The score of query token r against key token m of one batch is the inner product of
  their 1024 query / key features.

  Arrangement K multiplies the scores by c, takes the row maximum folded from ninf, exponentiates the differences,
  forms the weighted sum of the values with the unnormalised weights and divides it once by the sum of the weights.
  Arrangement R divides the scores by q, takes the row maximum (joined once more with ninf), exponentiates,
  divides every weight by (zero + the sum of the weights) and then forms the weighted sum of the values.
  Both finish with the output projection  (∑ d, attn b r d * Wp d e) + bp e.

  Law.lean proves the two equal on real data for c = 1/q; the other modules show that each program computes its
  arrangement.
-/
import Idealize.ShloMosaic.PureOps.Ideal

noncomputable section

open scoped BigOperators
open Idealize.ShloMosaic

namespace Cert.Spec

/-- Column d of the queries inside the fused projection. -/
def colQ (d : Fin 1024) : Fin 3072 := ⟨d.val, by omega⟩
/-- Column d of the keys inside the fused projection. -/
def colK (d : Fin 1024) : Fin 3072 := ⟨1024 + d.val, by omega⟩
/-- Column d of the values inside the fused projection. -/
def colV (d : Fin 1024) : Fin 3072 := ⟨2048 + d.val, by omega⟩

/-- The maximum of a row of 2048 scores, folded from `ninf`. -/
def rowMax (ninf : EReal) (S : Fin 2048 → EReal) : EReal := (Finset.univ : Finset (Fin 2048)).fold max ninf S

section
variable (x : Fin 4 → Fin 2048 → Fin 1024 → EReal) (W : Fin 1024 → Fin 3072 → EReal) (bias : Fin 3072 → EReal)

/-- The fused projection: token s of batch b, output column j. -/
def proj (b : Fin 4) (s : Fin 2048) (j : Fin 3072) : EReal := (∑ i : Fin 1024, x b s i * W i j) + bias j

/-- The inner product of query token r and key token m of batch b. -/
def score (b : Fin 4) (r m : Fin 2048) : EReal :=
  ∑ j : Fin 1024, proj x W bias b r (colQ j) * proj x W bias b m (colK j)

/-- Arrangement K's scaled scores. -/
def sK (c : EReal) (b : Fin 4) (r m : Fin 2048) : EReal := score x W bias b r m * c

/-- Arrangement K: normalise once, after the weighted sum of the values. -/
def attnK (c ninf : EReal) (b : Fin 4) (r : Fin 2048) (d : Fin 1024) : EReal :=
  Ideal.div
    (∑ m : Fin 2048, Ideal.exp (sK x W bias c b r m - rowMax ninf (sK x W bias c b r)) * proj x W bias b m (colV d))
    (∑ m : Fin 2048, Ideal.exp (sK x W bias c b r m - rowMax ninf (sK x W bias c b r)))

/-- Arrangement R's divided scores. -/
def sR (q : EReal) (b : Fin 4) (r m : Fin 2048) : EReal := Ideal.div (score x W bias b r m) q

/-- Arrangement R: normalise the weights, then sum the values. -/
def attnR (q ninf zero : EReal) (b : Fin 4) (r : Fin 2048) (d : Fin 1024) : EReal :=
  ∑ m : Fin 2048,
    Ideal.div (Ideal.exp (sR x W bias q b r m - max ninf (rowMax ninf (sR x W bias q b r))))
        (zero + ∑ m' : Fin 2048, Ideal.exp (sR x W bias q b r m' - max ninf (rowMax ninf (sR x W bias q b r))))
      * proj x W bias b m (colV d)

end

/-- The output projection of an attention result. -/
def outOf (attn : Fin 4 → Fin 2048 → Fin 1024 → EReal) (Wp : Fin 1024 → Fin 1024 → EReal) (bp : Fin 1024 → EReal)
    (b : Fin 4) (r : Fin 2048) (e : Fin 1024) : EReal := (∑ d : Fin 1024, attn b r d * Wp d e) + bp e

/-- The whole result in arrangement K. -/
def outK (c ninf : EReal) (x : Fin 4 → Fin 2048 → Fin 1024 → EReal) (W : Fin 1024 → Fin 3072 → EReal)
    (bias : Fin 3072 → EReal) (Wp : Fin 1024 → Fin 1024 → EReal) (bp : Fin 1024 → EReal) :
    Fin 4 → Fin 2048 → Fin 1024 → EReal := outOf (attnK x W bias c ninf) Wp bp

/-- The whole result in arrangement R. -/
def outR (q ninf zero : EReal) (x : Fin 4 → Fin 2048 → Fin 1024 → EReal) (W : Fin 1024 → Fin 3072 → EReal)
    (bias : Fin 3072 → EReal) (Wp : Fin 1024 → Fin 1024 → EReal) (bp : Fin 1024 → EReal) :
    Fin 4 → Fin 2048 → Fin 1024 → EReal := outOf (attnR x W bias q ninf zero) Wp bp

end Cert.Spec

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Pay0.lean ====
/-
  The body of the projection kernel, read at an index.

  One grid point of the first kernel takes a block of 512 token rows (512 x 1024), the whole weight matrix
  (1024 x 3072) and the bias as a 1 x 3072 row, forms the product plus the bias broadcast down the rows, and stores
  its three column ranges 0..1023, 1024..2047, 2048..3071 as the query, key and value blocks. At the exact values a
  change of float format is the identity, the product into a zero accumulator is the plain sum over the 1024
  contraction positions, and so at row p and column j the fused block is
      (∑ i, rows (p, i) * W (i, j)) + bias (0, j),
  and the three stored blocks read it at column d, 1024 + d and 2048 + d.
-/
import proofs.«132469_j61572651155726_2_alg».proof.Proof.Gen.KernelIdeal.Skeleton
import proofs.«132469_j61572651155726_2_alg».proof.Proof.Spec
import proofs.«132469_j61572651155726_2_alg».proof.Proof.LibPlainDot
import proofs.«132469_j61572651155726_2_alg».proof.Proof.LibRowBroadcasts
import Idealize.ShloMosaic.Lib.Pipeline.Value
import Idealize.ShloMosaic.Lib.ValueIdx
import Idealize.ShloMosaic.PureOps.Ideal.Laws

noncomputable section

namespace Cert.KernelIdeal.Pay0

open Cert.KernelIdeal Cert.KernelIdeal.Gen
open Idealize.ShloMosaic Idealize.ShloMosaic.ValueIdx
open scoped BigOperators

/-- The fused projection of a block of rows: row p, output column j. -/
def fused (x0 : S512x1024.Idx → EReal) (x1 : S1024x3072.Idx → EReal) (x2 : S1x3072.Idx → EReal)
    (p : Fin 512) (j : Fin 3072) : EReal :=
  (∑ i : Fin 1024, x0 (ix2 p i) * x1 (ix2 i j)) + x2 (ix2 (0 : Fin 1) j)

/-- The body's sum-plus-bias value at (p, j). -/
theorem pay1_apply (x0 : Vec Ideal S512x1024 .f32) (x1 : Vec Ideal S1024x3072 .bf16) (x2 : Vec Ideal S1x3072 .f32)
    (p : Fin 512) (j : Fin 3072) :
    k0_pay1 (F := Ideal) x0 x1 x2 (ix2 p j) = fused x0 x1 x2 p j := by
  unfold k0_pay1 fused
  refine (addf_apply _ _ _).trans ?_
  refine congrArg₂ (· + ·) ?_ ?_
  · refine (Cert.Lib.PlainDot.matmul_zero_apply dot_S512x1024_S1024x3072_S512x3072_1_0_0_1_n_n_wf none _ _ p j).trans ?_
    refine Finset.sum_congr rfl fun i _ => ?_
    rw [shapeCast_self, shapeCast_self]
    rfl
  · refine (Cert.Lib.Rows.bcastRow_apply _ broadcasts_S1x3072_S512x3072 p j).trans ?_
    rw [shapeCast_self]

/-- The stored query block at (p, d): the fused block at column d. -/
theorem pay2_apply (x0 : Vec Ideal S512x1024 .f32) (x1 : Vec Ideal S1024x3072 .bf16) (x2 : Vec Ideal S1x3072 .f32)
    (p : Fin 512) (d : Fin 1024) :
    k0_pay2 (F := Ideal) x0 x1 x2 (ix2 p d) = fused x0 x1 x2 p (Cert.Spec.colQ d) := by
  unfold k0_pay2
  show extractStridedSlice S512x1024 ![0, 0] (k0_pay1 x0 x1 x2) slices_S512x3072_o0_0_S512x1024 (ix2 p d) = _
  refine (extractStridedSlice_apply _ _ slices_S512x3072_o0_0_S512x1024 (ix2 p d) (ix2 p (Cert.Spec.colQ d)) fun a => ?_).trans
    (pay1_apply x0 x1 x2 p _)
  match a with
  | ⟨0, _⟩ => show p.val = 0 + p.val; omega
  | ⟨1, _⟩ => show d.val = 0 + d.val; omega

/-- The stored key block at (p, d): the fused block at column 1024 + d. -/
theorem pay3_apply (x0 : Vec Ideal S512x1024 .f32) (x1 : Vec Ideal S1024x3072 .bf16) (x2 : Vec Ideal S1x3072 .f32)
    (p : Fin 512) (d : Fin 1024) :
    k0_pay3 (F := Ideal) x0 x1 x2 (ix2 p d) = fused x0 x1 x2 p (Cert.Spec.colK d) := by
  unfold k0_pay3
  show extractStridedSlice S512x1024 ![0, 1024] (k0_pay1 x0 x1 x2) slices_S512x3072_o0_1024_S512x1024 (ix2 p d) = _
  refine (extractStridedSlice_apply _ _ slices_S512x3072_o0_1024_S512x1024 (ix2 p d) (ix2 p (Cert.Spec.colK d)) fun a => ?_).trans
    (pay1_apply x0 x1 x2 p _)
  match a with
  | ⟨0, _⟩ => show p.val = 0 + p.val; omega
  | ⟨1, _⟩ => show 1024 + d.val = 1024 + d.val; rfl

/-- The stored value block at (p, d): the fused block at column 2048 + d. -/
theorem pay4_apply (x0 : Vec Ideal S512x1024 .f32) (x1 : Vec Ideal S1024x3072 .bf16) (x2 : Vec Ideal S1x3072 .f32)
    (p : Fin 512) (d : Fin 1024) :
    k0_pay4 (F := Ideal) x0 x1 x2 (ix2 p d) = fused x0 x1 x2 p (Cert.Spec.colV d) := by
  unfold k0_pay4
  show extractStridedSlice S512x1024 ![0, 2048] (k0_pay1 x0 x1 x2) slices_S512x3072_o0_2048_S512x1024 (ix2 p d) = _
  refine (extractStridedSlice_apply _ _ slices_S512x3072_o0_2048_S512x1024 (ix2 p d) (ix2 p (Cert.Spec.colV d)) fun a => ?_).trans
    (pay1_apply x0 x1 x2 p _)
  match a with
  | ⟨0, _⟩ => show p.val = 0 + p.val; omega
  | ⟨1, _⟩ => show 2048 + d.val = 2048 + d.val; rfl

end Cert.KernelIdeal.Pay0

end
-- ==== Proof.Blocks0.lean ====
/-
  The projection kernel's three output arrays after its region.

  The grid of the first kernel has 16 points; point t loads rows 512 t .. 512 t + 511 of the 8192 x 1024 token
  matrix, the whole weight matrix and the bias row, and writes back the same rows of the query, key and value
  arrays. Row g of each array is therefore written exactly by point g / 512, and after the region each array holds,
  at (g, d), the fused projection of the arrays the region was entered with, at row g and the array's column range.
  The statements are over any contents V at the region's entry.
-/
import proofs.«132469_j61572651155726_2_alg».proof.Proof.Gen.KernelIdeal.Frame
import proofs.«132469_j61572651155726_2_alg».proof.Proof.Pay0
import Idealize.ShloMosaic.Lib.Pipeline.Value
import Idealize.ShloMosaic.Lib.ValueIdx

set_option maxRecDepth 16384

noncomputable section

namespace Cert.KernelIdeal.Blocks0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The fused projection of whole arrays: token row g, output column j. -/
def projArr (X : S8192x1024.Idx → EReal) (Wt : S1024x3072.Idx → EReal) (bt : S1x3072.Idx → EReal)
    (g : Fin 8192) (j : Fin 3072) : EReal :=
  (∑ i : Fin 1024, X (ix2 g i) * Wt (ix2 i j)) + bt (ix2 (0 : Fin 1) j)

/-- One block of rows: if the loaded rows are rows of X (row p of the block is row g of X), the loaded weight and bias
    are the whole arrays, then the stored entry (p, d) is the fused projection of X at row g, column colQ d. -/
theorem block_apply2 (X : S8192x1024.Idx → EReal) (Wt : S1024x3072.Idx → EReal) (bt : S1x3072.Idx → EReal)
    (x0 : S512x1024.Idx → EReal) (x1 : S1024x3072.Idx → EReal) (x2 : S1x3072.Idx → EReal)
    (g : Fin 8192) (e : Fin 1024) (p : Fin 512) (d : Fin 1024)
    (h0 : ∀ i : Fin 1024, x0 (ix2 p i) = X (ix2 g i)) (h1 : x1 = Wt) (h2 : x2 = bt) (hd : e = d) :
    k0_pay2 (F := Ideal) x0 x1 x2 (ix2 p d) = projArr X Wt bt g (Cert.Spec.colQ e) := by
  subst h1 h2 hd
  refine (Pay0.pay2_apply x0 x1 x2 p e).trans ?_
  unfold Pay0.fused projArr
  exact congrArg (· + x2 (ix2 (0 : Fin 1) (Cert.Spec.colQ e))) (Finset.sum_congr rfl fun i _ => by rw [h0 i])

/-- One block of rows: if the loaded rows are rows of X (row p of the block is row g of X), the loaded weight and bias
    are the whole arrays, then the stored entry (p, d) is the fused projection of X at row g, column colK d. -/
theorem block_apply3 (X : S8192x1024.Idx → EReal) (Wt : S1024x3072.Idx → EReal) (bt : S1x3072.Idx → EReal)
    (x0 : S512x1024.Idx → EReal) (x1 : S1024x3072.Idx → EReal) (x2 : S1x3072.Idx → EReal)
    (g : Fin 8192) (e : Fin 1024) (p : Fin 512) (d : Fin 1024)
    (h0 : ∀ i : Fin 1024, x0 (ix2 p i) = X (ix2 g i)) (h1 : x1 = Wt) (h2 : x2 = bt) (hd : e = d) :
    k0_pay3 (F := Ideal) x0 x1 x2 (ix2 p d) = projArr X Wt bt g (Cert.Spec.colK e) := by
  subst h1 h2 hd
  refine (Pay0.pay3_apply x0 x1 x2 p e).trans ?_
  unfold Pay0.fused projArr
  exact congrArg (· + x2 (ix2 (0 : Fin 1) (Cert.Spec.colK e))) (Finset.sum_congr rfl fun i _ => by rw [h0 i])

/-- One block of rows: if the loaded rows are rows of X (row p of the block is row g of X), the loaded weight and bias
    are the whole arrays, then the stored entry (p, d) is the fused projection of X at row g, column colV d. -/
theorem block_apply4 (X : S8192x1024.Idx → EReal) (Wt : S1024x3072.Idx → EReal) (bt : S1x3072.Idx → EReal)
    (x0 : S512x1024.Idx → EReal) (x1 : S1024x3072.Idx → EReal) (x2 : S1x3072.Idx → EReal)
    (g : Fin 8192) (e : Fin 1024) (p : Fin 512) (d : Fin 1024)
    (h0 : ∀ i : Fin 1024, x0 (ix2 p i) = X (ix2 g i)) (h1 : x1 = Wt) (h2 : x2 = bt) (hd : e = d) :
    k0_pay4 (F := Ideal) x0 x1 x2 (ix2 p d) = projArr X Wt bt g (Cert.Spec.colV e) := by
  subst h1 h2 hd
  refine (Pay0.pay4_apply x0 x1 x2 p e).trans ?_
  unfold Pay0.fused projArr
  exact congrArg (· + x2 (ix2 (0 : Fin 1) (Cert.Spec.colV e))) (Finset.sum_congr rfl fun i _ => by rw [h0 i])

theorem hz : (![0, 0] : Fin 2 → Nat) = fun _ => 0 := funext fun a => by fin_cases a <;> rfl

/-- The index maps over the grid: the row blocks move with the point, everything else stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Point t writes back, through output window 3, rows 512 t .. 512 t + 511 of the query columns of the fused
    projection of the arrays as the region finds them. -/
theorem flushed3 (c : Dev nD) (t : Fin cfg0.N) :
    (dat0 V c).flushed 3 t = ((cfg0.win 3).blk t).view.read (Elt Ideal)
      (fun i => projArr (V c main_v0) (V c main_v1) (V c main_v3) (i 0) (Cert.Spec.colQ (i 1))) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x3072) hz, View.ld_unit_zero (S := S1x3072) hz]
  obtain ⟨e00, e01, e10, e11, e20, e21, e30, e31, e40, e41, e50, e51⟩ := idx_facts t
  funext j
  refine (congrArg (k0_pay2 (F := Ideal) (iblk0 V c 0 t) (iblk0 V c 1 t) (iblk0 V c 2 t)) (eq_ix2 (n0 := 512) (n1 := 1024) j)).trans ?_
  refine block_apply2 (V c main_v0) (V c main_v1) (V c main_v3) (iblk0 V c 0 t) (iblk0 V c 1 t) (iblk0 V c 2 t)
    ((((cfg0.win 3).blk t).view.emb j) 0) ((((cfg0.win 3).blk t).view.emb j) 1) (j 0) (j 1) (fun i => ?_) ?_ ?_ ?_
  · show V c main_v0 (((cfg0.win 0).blk t).view.emb (ix2 (j 0) i)) = V c main_v0 (ix2 ((((cfg0.win 3).blk t).view.emb j) 0) i)
    refine congrArg (V c main_v0) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * i.val = i.val; omega
  · funext y
    show V c main_v1 (((cfg0.win 1).blk t).view.emb y) = V c main_v1 y
    refine congrArg (V c main_v1) (funext fun a => Fin.ext ?_)
    match a with
    | ⟨0, _⟩ => show win0_1.index t (0 : Fin 2) * 1024 + 1 * (y 0).val = (y 0).val; omega
    | ⟨1, _⟩ => show win0_1.index t (1 : Fin 2) * 3072 + 1 * (y 1).val = (y 1).val; omega
  · funext y
    show V c main_v3 (((cfg0.win 2).blk t).view.emb y) = V c main_v3 y
    refine congrArg (V c main_v3) (funext fun a => Fin.ext ?_)
    match a with
    | ⟨0, _⟩ => show win0_2.index t (0 : Fin 2) * 1 + 1 * (y 0).val = (y 0).val; omega
    | ⟨1, _⟩ => show win0_2.index t (1 : Fin 2) * 3072 + 1 * (y 1).val = (y 1).val; omega
  · apply Fin.ext
    show win0_3.index t (1 : Fin 2) * 1024 + 1 * (j 1).val = (j 1).val
    omega

/-- An index of the array is in point t's block of window 3 iff each coordinate is in the block's range. -/
theorem mem_blk3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4_0).slice (win0_3.rect t)).set ↔ _
  rw [View.set_slice_whole, Rect.mem_set_unit]
  exact Iff.rfl

/-- Row g of the array is written back by point g / 512. -/
theorem cover3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : (i 0).val / 512 < grid0.N := by rw [N_0]; omega
  refine ⟨⟨(i 0).val / 512, hN⟩, flush0_3 _, ?_⟩
  rw [mem_blk3]
  obtain ⟨e00, e01, e10, e11, e20, e21, e30, e31, e40, e41, e50, e51⟩ := idx_facts ⟨(i 0).val / 512, hN⟩
  intro a
  match a with
  | ⟨0, _⟩ => show win0_3.index ⟨(i 0).val / 512, hN⟩ (0 : Fin 2) * 512 ≤ (i 0).val ∧ (i 0).val < win0_3.index ⟨(i 0).val / 512, hN⟩ (0 : Fin 2) * 512 + 512; rw [e30]; show (i 0).val / 512 * 512 ≤ _ ∧ _ < (i 0).val / 512 * 512 + 512; omega
  | ⟨1, _⟩ => show win0_3.index ⟨(i 0).val / 512, hN⟩ (1 : Fin 2) * 1024 ≤ (i 1).val ∧ (i 1).val < win0_3.index ⟨(i 0).val / 512, hN⟩ (1 : Fin 2) * 1024 + 1024; omega

/-- After the region the array of window 3 holds the query columns of the fused projection. -/
theorem arr3 (c : Dev nD) :
    (dat0 V c).arrAt 3 cfg0.N = fun i => projArr (V c main_v0) (V c main_v1) (V c main_v3) (i 0) (Cert.Spec.colQ (i 1)) :=
  (dat0 V c).arrAt_eq_of_cover 3 _ (fun t _ => flushed3 V c t) cover3

/-- Point t writes back, through output window 4, rows 512 t .. 512 t + 511 of the key columns of the fused
    projection of the arrays as the region finds them. -/
theorem flushed4 (c : Dev nD) (t : Fin cfg0.N) :
    (dat0 V c).flushed 4 t = ((cfg0.win 4).blk t).view.read (Elt Ideal)
      (fun i => projArr (V c main_v0) (V c main_v1) (V c main_v3) (i 0) (Cert.Spec.colK (i 1))) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x3072) hz, View.ld_unit_zero (S := S1x3072) hz]
  obtain ⟨e00, e01, e10, e11, e20, e21, e30, e31, e40, e41, e50, e51⟩ := idx_facts t
  funext j
  refine (congrArg (k0_pay3 (F := Ideal) (iblk0 V c 0 t) (iblk0 V c 1 t) (iblk0 V c 2 t)) (eq_ix2 (n0 := 512) (n1 := 1024) j)).trans ?_
  refine block_apply3 (V c main_v0) (V c main_v1) (V c main_v3) (iblk0 V c 0 t) (iblk0 V c 1 t) (iblk0 V c 2 t)
    ((((cfg0.win 4).blk t).view.emb j) 0) ((((cfg0.win 4).blk t).view.emb j) 1) (j 0) (j 1) (fun i => ?_) ?_ ?_ ?_
  · show V c main_v0 (((cfg0.win 0).blk t).view.emb (ix2 (j 0) i)) = V c main_v0 (ix2 ((((cfg0.win 4).blk t).view.emb j) 0) i)
    refine congrArg (V c main_v0) (funext fun a => Fin.ext ?_)
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * i.val = i.val; omega
  · funext y
    show V c main_v1 (((cfg0.win 1).blk t).view.emb y) = V c main_v1 y
    refine congrArg (V c main_v1) (funext fun a => Fin.ext ?_)
    match a with
    | ⟨0, _⟩ => show win0_1.index t (0 : Fin 2) * 1024 + 1 * (y 0).val = (y 0).val; omega
    | ⟨1, _⟩ => show win0_1.index t (1 : Fin 2) * 3072 + 1 * (y 1).val = (y 1).val; omega
  · funext y
    show V c main_v3 (((cfg0.win 2).blk t).view.emb y) = V c main_v3 y
    refine congrArg (V c main_v3) (funext fun a => Fin.ext ?_)
    match a with
    | ⟨0, _⟩ => show win0_2.index t (0 : Fin 2) * 1 + 1 * (y 0).val = (y 0).val; omega
    | ⟨1, _⟩ => show win0_2.index t (1 : Fin 2) * 3072 + 1 * (y 1).val = (y 1).val; omega
  · apply Fin.ext
    show win0_4.index t (1 : Fin 2) * 1024 + 1 * (j 1).val = (j 1).val
    omega

/-- An index of the array is in point t's block of window 4 iff each coordinate is in the block's range. -/
theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_1).slice (win0_4.rect t)).set ↔ _
  rw [View.set_slice_whole, Rect.mem_set_unit]
  exact Iff.rfl

/-- Row g of the array is written back by point g / 512. -/
theorem cover4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : (i 0).val / 512 < grid0.N := by rw [N_0]; omega
  refine ⟨⟨(i 0).val / 512, hN⟩, flush0_4 _, ?_⟩
  rw [mem_blk4]
  obtain ⟨e00, e01, e10, e11, e20, e21, e30, e31, e40, e41, e50, e51⟩ := idx_facts ⟨(i 0).val / 512, hN⟩
  intro a
  match a with
  | ⟨0, _⟩ => show win0_4.index ⟨(i 0).val / 512, hN⟩ (0 : Fin 2) * 512 ≤ (i 0).val ∧ (i 0).val < win0_4.index ⟨(i 0).val / 512, hN⟩ (0 : Fin 2) * 512 + 512; rw [e40]; show (i 0).val / 512 * 512 ≤ _ ∧ _ < (i 0).val / 512 * 512 + 512; omega
  | ⟨1, _⟩ => show win0_4.index ⟨(i 0).val / 512, hN⟩ (1 : Fin 2) * 1024 ≤ (i 1).val ∧ (i 1).val < win0_4.index ⟨(i 0).val / 512, hN⟩ (1 : Fin 2) * 1024 + 1024; omega

/-- After the region the array of window 4 holds the key columns of the fused projection. -/
theorem arr4 (c : Dev nD) :
    (dat0 V c).arrAt 4 cfg0.N = fun i => projArr (V c main_v0) (V c main_v1) (V c main_v3) (i 0) (Cert.Spec.colK (i 1)) :=
  (dat0 V c).arrAt_eq_of_cover 4 _ (fun t _ => flushed4 V c t) cover4

/-- Point t writes back, through output window 5, rows 512 t .. 512 t + 511 of the value columns of the fused
    projection of the arrays as the region finds them. -/
theorem flushed5 (c : Dev nD) (t : Fin cfg0.N) :
    (dat0 V c).flushed 5 t = ((cfg0.win 5).blk t).view.read (Elt Ideal)
      (fun i => projArr (V c main_v0) (V c main_v1) (V c main_v3) (i 0) (Cert.Spec.colV (i 1))) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x3072) hz, View.ld_unit_zero (S := S1x3072) hz]
  obtain ⟨e00, e01, e10, e11, e20, e21, e30, e31, e40, e41, e50, e51⟩ := idx_facts t
  funext j
  refine (congrArg (k0_pay4 (F := Ideal) (iblk0 V c 0 t) (iblk0 V c 1 t) (iblk0 V c 2 t)) (eq_ix2 (n0 := 512) (n1 := 1024) j)).trans ?_
  refine block_apply4 (V c main_v0) (V c main_v1) (V c main_v3) (iblk0 V c 0 t) (iblk0 V c 1 t) (iblk0 V c 2 t)
    ((((cfg0.win 5).blk t).view.emb j) 0) ((((cfg0.win 5).blk t).view.emb j) 1) (j 0) (j 1) (fun i => ?_) ?_ ?_ ?_
  · show V c main_v0 (((cfg0.win 0).blk t).view.emb (ix2 (j 0) i)) = V c main_v0 (ix2 ((((cfg0.win 5).blk t).view.emb j) 0) i)
    refine congrArg (V c main_v0) (funext fun a => Fin.ext ?_)
    match a with
    | ⟨0, _⟩ => show win0_0.index t (0 : Fin 2) * 512 + 1 * (j 0).val = win0_5.index t (0 : Fin 2) * 512 + 1 * (j 0).val; omega
    | ⟨1, _⟩ => show win0_0.index t (1 : Fin 2) * 1024 + 1 * i.val = i.val; omega
  · funext y
    show V c main_v1 (((cfg0.win 1).blk t).view.emb y) = V c main_v1 y
    refine congrArg (V c main_v1) (funext fun a => Fin.ext ?_)
    match a with
    | ⟨0, _⟩ => show win0_1.index t (0 : Fin 2) * 1024 + 1 * (y 0).val = (y 0).val; omega
    | ⟨1, _⟩ => show win0_1.index t (1 : Fin 2) * 3072 + 1 * (y 1).val = (y 1).val; omega
  · funext y
    show V c main_v3 (((cfg0.win 2).blk t).view.emb y) = V c main_v3 y
    refine congrArg (V c main_v3) (funext fun a => Fin.ext ?_)
    match a with
    | ⟨0, _⟩ => show win0_2.index t (0 : Fin 2) * 1 + 1 * (y 0).val = (y 0).val; omega
    | ⟨1, _⟩ => show win0_2.index t (1 : Fin 2) * 3072 + 1 * (y 1).val = (y 1).val; omega
  · apply Fin.ext
    show win0_5.index t (1 : Fin 2) * 1024 + 1 * (j 1).val = (j 1).val
    omega

/-- An index of the array is in point t's block of window 5 iff each coordinate is in the block's range. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_2).slice (win0_5.rect t)).set ↔ _
  rw [View.set_slice_whole, Rect.mem_set_unit]
  exact Iff.rfl

/-- Row g of the array is written back by point g / 512. -/
theorem cover5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : (i 0).val / 512 < grid0.N := by rw [N_0]; omega
  refine ⟨⟨(i 0).val / 512, hN⟩, flush0_5 _, ?_⟩
  rw [mem_blk5]
  obtain ⟨e00, e01, e10, e11, e20, e21, e30, e31, e40, e41, e50, e51⟩ := idx_facts ⟨(i 0).val / 512, hN⟩
  intro a
  match a with
  | ⟨0, _⟩ => show win0_5.index ⟨(i 0).val / 512, hN⟩ (0 : Fin 2) * 512 ≤ (i 0).val ∧ (i 0).val < win0_5.index ⟨(i 0).val / 512, hN⟩ (0 : Fin 2) * 512 + 512; rw [e50]; show (i 0).val / 512 * 512 ≤ _ ∧ _ < (i 0).val / 512 * 512 + 512; omega
  | ⟨1, _⟩ => show win0_5.index ⟨(i 0).val / 512, hN⟩ (1 : Fin 2) * 1024 ≤ (i 1).val ∧ (i 1).val < win0_5.index ⟨(i 0).val / 512, hN⟩ (1 : Fin 2) * 1024 + 1024; omega

/-- After the region the array of window 5 holds the value columns of the fused projection. -/
theorem arr5 (c : Dev nD) :
    (dat0 V c).arrAt 5 cfg0.N = fun i => projArr (V c main_v0) (V c main_v1) (V c main_v3) (i 0) (Cert.Spec.colV (i 1)) :=
  (dat0 V c).arrAt_eq_of_cover 5 _ (fun t _ => flushed5 V c t) cover5

end Cert.KernelIdeal.Blocks0

end
-- ==== Proof.LibUnitAxis.lean ====
/-
  A leading unit axis read at an index.

  A block of shape [1, h, w] and the matrix of shape [h, w] with the same entries in row-major order: viewing the
  block as the matrix reads (0, r, c) at (r, c), and storing the matrix as a block reads (r, c) at (·, r, c). For any
  element type and any extents.
-/
import Idealize.ShloMosaic.Lib.Pipeline.Value
import Idealize.ShloMosaic.Lib.ValueIdx

noncomputable section

namespace Cert.Lib.UnitAxis

open Idealize.ShloMosaic Idealize.ShloMosaic.ValueIdx

/-- A block [1, h, w] viewed [h, w] reads (0, r, c) at (r, c). -/
theorem drop_apply {h w : Nat} {α : Type} (v : (⟨3, ![1, h, w]⟩ : Shape).Idx → α)
    (hc : (⟨3, ![1, h, w]⟩ : Shape).ShapeCasts ⟨2, ![h, w]⟩) (r : Fin h) (c : Fin w) :
    shapeCast ⟨2, ![h, w]⟩ v hc (ix2 r c) = v (ix3 (0 : Fin 1) r c) :=
  shapeCast_apply v hc _ _ (by
    rw [Shape.rowMajor_val_three, Shape.rowMajor_val_two]
    show (0 * h + r.val) * w + c.val = r.val * w + c.val
    rw [Nat.zero_mul, Nat.zero_add])

/-- An [h, w] value stored as a block [1, h, w] reads (r, c) at (u, r, c). -/
theorem add_apply {h w : Nat} {α : Type} (v : (⟨2, ![h, w]⟩ : Shape).Idx → α)
    (hc : (⟨2, ![h, w]⟩ : Shape).ShapeCasts ⟨3, ![1, h, w]⟩) (u : Fin 1) (r : Fin h) (c : Fin w) :
    shapeCast ⟨3, ![1, h, w]⟩ v hc (ix3 u r c) = v (ix2 r c) :=
  shapeCast_apply v hc _ _ (by
    have hu : u.val = 0 := by omega
    rw [Shape.rowMajor_val_three, Shape.rowMajor_val_two]
    show r.val * w + c.val = (u.val * h + r.val) * w + c.val
    rw [hu, Nat.zero_mul, Nat.zero_add])

end Cert.Lib.UnitAxis

end
-- ==== Proof.LibBatchRowDot.lean ====
/-
  A batched product of rows read at an index.

  The dimension numbers of a [B, n, c] × [B, m, c] → [B, n, m] product take axis 0 of both operands as a batch axis
  and contract axis 2 of both.  At result index (r, i, j) and contraction position k the left operand is read at
  (r, i, k) and the right operand at (r, j, k), so the sum over the contraction shape's one-axis index set is the sum
  over k : Fin c of lhs (r, i, k) * rhs (r, j, k) — in any commutative additive monoid with a product, the extended
  reals included: batch r's matrix of inner products of the rows of the two operands.  Over variable extents; a
  printed record with these six lists is this one by reflexivity.
-/
import Idealize.ShloMosaic.Lib.ValueIdx
import Idealize.ShloMosaic.PureOps.Ideal.Laws

noncomputable section

namespace Cert.Lib.BatchRowDot

open Idealize.ShloMosaic Idealize.ShloMosaic.ValueIdx
open scoped BigOperators

variable {B n m c : Nat}

/-- The dimension numbers of the batched product [B, n, c] × [B, m, c] → [B, n, m]. -/
abbrev dims (wf : DotDims.WF ⟨3, ![B, n, c]⟩ ⟨3, ![B, m, c]⟩ ⟨3, ![B, n, m]⟩ [2] [2] [1] [1] [0] [0]) :
    DotDims ⟨3, ![B, n, c]⟩ ⟨3, ![B, m, c]⟩ ⟨3, ![B, n, m]⟩ where
  lhsContracting := [2]
  rhsContracting := [2]
  lhsNonContracting := [1]
  rhsNonContracting := [1]
  lhsBatch := [0]
  rhsBatch := [0]
  wf := wf

variable (wf : DotDims.WF ⟨3, ![B, n, c]⟩ ⟨3, ![B, m, c]⟩ ⟨3, ![B, n, m]⟩ [2] [2] [1] [1] [0] [0])

/-- The left operand's batch coordinate is the result's. -/
theorem lhs_batch (i : (⟨3, ![B, n, m]⟩ : Shape).Idx) (k : (dims wf).contr.Idx) :
    ((dims wf).lhsIdx i k 0).val = (i 0).val := by
  unfold DotDims.lhsIdx
  rw [dif_pos (show (0 : Fin 3) ∈ (dims wf).lhsBatch from List.mem_singleton.mpr rfl)]
  rfl

/-- The left operand's row is the result's row. -/
theorem lhs_row (i : (⟨3, ![B, n, m]⟩ : Shape).Idx) (k : (dims wf).contr.Idx) :
    ((dims wf).lhsIdx i k 1).val = (i 1).val := by
  unfold DotDims.lhsIdx
  rw [dif_neg (show ¬(1 : Fin 3) ∈ (dims wf).lhsBatch from fun h => absurd (show (1 : Fin 3) = 0 from List.mem_singleton.mp h) (by decide)),
    dif_pos (show (1 : Fin 3) ∈ (dims wf).lhsNonContracting from List.mem_singleton.mpr rfl)]
  rfl

/-- The left operand's last coordinate is the contraction position. -/
theorem lhs_last (i : (⟨3, ![B, n, m]⟩ : Shape).Idx) (k : (dims wf).contr.Idx) :
    ((dims wf).lhsIdx i k 2).val = (k ⟨0, Nat.one_pos⟩).val :=
  (dims wf).lhsIdx_val_of_single rfl i k

/-- The right operand's batch coordinate is the result's. -/
theorem rhs_batch (i : (⟨3, ![B, n, m]⟩ : Shape).Idx) (k : (dims wf).contr.Idx) :
    ((dims wf).rhsIdx i k 0).val = (i 0).val := by
  unfold DotDims.rhsIdx
  rw [dif_pos (show (0 : Fin 3) ∈ (dims wf).rhsBatch from List.mem_singleton.mpr rfl)]
  rfl

/-- The right operand's row is the result's column. -/
theorem rhs_row (i : (⟨3, ![B, n, m]⟩ : Shape).Idx) (k : (dims wf).contr.Idx) :
    ((dims wf).rhsIdx i k 1).val = (i 2).val := by
  unfold DotDims.rhsIdx
  rw [dif_neg (show ¬(1 : Fin 3) ∈ (dims wf).rhsBatch from fun h => absurd (show (1 : Fin 3) = 0 from List.mem_singleton.mp h) (by decide)),
    dif_pos (show (1 : Fin 3) ∈ (dims wf).rhsNonContracting from List.mem_singleton.mpr rfl)]
  rfl

/-- The right operand's last coordinate is the contraction position. -/
theorem rhs_last (i : (⟨3, ![B, n, m]⟩ : Shape).Idx) (k : (dims wf).contr.Idx) :
    ((dims wf).rhsIdx i k 2).val = (k ⟨0, Nat.one_pos⟩).val :=
  (dims wf).rhsIdx_val_of_single rfl i k

/-- The product's sum at (r, i, j): over k, the left operand at (r, i, k) times the right operand at (r, j, k). -/
theorem sum_apply {M : Type*} [AddCommMonoid M] [Mul M] (lhs : (⟨3, ![B, n, c]⟩ : Shape).Idx → M)
    (rhs : (⟨3, ![B, m, c]⟩ : Shape).Idx → M) (r : Fin B) (i : Fin n) (j : Fin m) :
    ∑ k : (dims wf).contr.Idx, lhs ((dims wf).lhsIdx (ix3 r i j) k) * rhs ((dims wf).rhsIdx (ix3 r i j) k)
      = ∑ k : Fin c, lhs (ix3 r i k) * rhs (ix3 r j k) := by
  rw [← Equiv.sum_comp (contrEquiv1 (dims wf) c rfl rfl).symm]
  refine Finset.sum_congr rfl fun k _ => ?_
  have hk := contrEquiv1_symm_val (dims wf) c rfl rfl k
  have el : (dims wf).lhsIdx (ix3 r i j) ((contrEquiv1 (dims wf) c rfl rfl).symm k) = ix3 r i k :=
    funext fun ax => Fin.ext (by
      match ax with
      | ⟨0, _⟩ => exact lhs_batch wf _ _
      | ⟨1, _⟩ => exact lhs_row wf _ _
      | ⟨2, _⟩ => exact (lhs_last wf _ _).trans hk)
  have er : (dims wf).rhsIdx (ix3 r i j) ((contrEquiv1 (dims wf) c rfl rfl).symm k) = ix3 r j k :=
    funext fun ax => Fin.ext (by
      match ax with
      | ⟨0, _⟩ => exact rhs_batch wf _ _
      | ⟨1, _⟩ => exact rhs_row wf _ _
      | ⟨2, _⟩ => exact (rhs_last wf _ _).trans hk)
  rw [el, er]

/-- The host's batched product, at the exact values, read at (r, i, j). -/
theorem dotGeneral_apply {φ₁ φ₂ : FTy} (prec : Option ContractPrecision) (lhs : FVec Ideal ⟨3, ![B, n, c]⟩ φ₁)
    (rhs : FVec Ideal ⟨3, ![B, m, c]⟩ φ₂) (r : Fin B) (i : Fin n) (j : Fin m) :
    Host.dotGeneral (dims wf) prec lhs rhs (ix3 r i j) = ∑ k : Fin c, lhs (ix3 r i k) * rhs (ix3 r j k) :=
  (Ideal.dotGeneral_apply (dims wf) prec _ lhs rhs (ix3 r i j)).trans (sum_apply wf lhs rhs r i j)

end Cert.Lib.BatchRowDot

end
-- ==== Proof.LibBatchMatDot.lean ====
/-
  A batched matrix product read at an index.

  The dimension numbers of a [B, n, k] × [B, k, d] → [B, n, d] product take axis 0 of both operands as a batch axis
  and contract the left operand's axis 2 with the right operand's axis 1. At result index (r, i, j) and contraction
  position m the left operand is read at (r, i, m) and the right operand at (r, m, j), so the sum over the
  contraction shape's one-axis index set is the sum over m : Fin k of lhs (r, i, m) * rhs (r, m, j) — batch r's
  ordinary matrix product, in any commutative additive monoid with a product, the extended reals included. Over
  variable extents; a printed record with these six lists is this one by reflexivity.
-/
import Idealize.ShloMosaic.Lib.ValueIdx
import Idealize.ShloMosaic.PureOps.Ideal.Laws

noncomputable section

namespace Cert.Lib.BatchMatDot

open Idealize.ShloMosaic Idealize.ShloMosaic.ValueIdx
open scoped BigOperators

variable {B n k d : Nat}

/-- The dimension numbers of the batched product [B, n, k] × [B, k, d] → [B, n, d]. -/
abbrev dims (wf : DotDims.WF ⟨3, ![B, n, k]⟩ ⟨3, ![B, k, d]⟩ ⟨3, ![B, n, d]⟩ [2] [1] [1] [2] [0] [0]) :
    DotDims ⟨3, ![B, n, k]⟩ ⟨3, ![B, k, d]⟩ ⟨3, ![B, n, d]⟩ where
  lhsContracting := [2]
  rhsContracting := [1]
  lhsNonContracting := [1]
  rhsNonContracting := [2]
  lhsBatch := [0]
  rhsBatch := [0]
  wf := wf

variable (wf : DotDims.WF ⟨3, ![B, n, k]⟩ ⟨3, ![B, k, d]⟩ ⟨3, ![B, n, d]⟩ [2] [1] [1] [2] [0] [0])

/-- The left operand's batch coordinate is the result's. -/
theorem lhs_batch (i : (⟨3, ![B, n, d]⟩ : Shape).Idx) (q : (dims wf).contr.Idx) :
    ((dims wf).lhsIdx i q 0).val = (i 0).val := by
  unfold DotDims.lhsIdx
  rw [dif_pos (show (0 : Fin 3) ∈ (dims wf).lhsBatch from List.mem_singleton.mpr rfl)]
  rfl

/-- The left operand's row is the result's row. -/
theorem lhs_row (i : (⟨3, ![B, n, d]⟩ : Shape).Idx) (q : (dims wf).contr.Idx) :
    ((dims wf).lhsIdx i q 1).val = (i 1).val := by
  unfold DotDims.lhsIdx
  rw [dif_neg (show ¬(1 : Fin 3) ∈ (dims wf).lhsBatch from fun h =>
      absurd (show (1 : Fin 3) = 0 from List.mem_singleton.mp h) (by decide)),
    dif_pos (show (1 : Fin 3) ∈ (dims wf).lhsNonContracting from List.mem_singleton.mpr rfl)]
  rfl

/-- The left operand's last coordinate is the contraction position. -/
theorem lhs_last (i : (⟨3, ![B, n, d]⟩ : Shape).Idx) (q : (dims wf).contr.Idx) :
    ((dims wf).lhsIdx i q 2).val = (q ⟨0, Nat.one_pos⟩).val :=
  (dims wf).lhsIdx_val_of_single rfl i q

/-- The right operand's batch coordinate is the result's. -/
theorem rhs_batch (i : (⟨3, ![B, n, d]⟩ : Shape).Idx) (q : (dims wf).contr.Idx) :
    ((dims wf).rhsIdx i q 0).val = (i 0).val := by
  unfold DotDims.rhsIdx
  rw [dif_pos (show (0 : Fin 3) ∈ (dims wf).rhsBatch from List.mem_singleton.mpr rfl)]
  rfl

/-- The right operand's middle coordinate is the contraction position. -/
theorem rhs_mid (i : (⟨3, ![B, n, d]⟩ : Shape).Idx) (q : (dims wf).contr.Idx) :
    ((dims wf).rhsIdx i q 1).val = (q ⟨0, Nat.one_pos⟩).val :=
  (dims wf).rhsIdx_val_of_single rfl i q

/-- The right operand's last coordinate is the result's column. -/
theorem rhs_col (i : (⟨3, ![B, n, d]⟩ : Shape).Idx) (q : (dims wf).contr.Idx) :
    ((dims wf).rhsIdx i q 2).val = (i 2).val := by
  unfold DotDims.rhsIdx
  rw [dif_neg (show ¬(2 : Fin 3) ∈ (dims wf).rhsBatch from fun h =>
      absurd (show (2 : Fin 3) = 0 from List.mem_singleton.mp h) (by decide)),
    dif_pos (show (2 : Fin 3) ∈ (dims wf).rhsNonContracting from List.mem_singleton.mpr rfl)]
  rfl

/-- The product's sum at (r, i, j): over m, the left operand at (r, i, m) times the right operand at (r, m, j). -/
theorem sum_apply {M : Type*} [AddCommMonoid M] [Mul M] (lhs : (⟨3, ![B, n, k]⟩ : Shape).Idx → M)
    (rhs : (⟨3, ![B, k, d]⟩ : Shape).Idx → M) (r : Fin B) (i : Fin n) (j : Fin d) :
    ∑ q : (dims wf).contr.Idx, lhs ((dims wf).lhsIdx (ix3 r i j) q) * rhs ((dims wf).rhsIdx (ix3 r i j) q)
      = ∑ m : Fin k, lhs (ix3 r i m) * rhs (ix3 r m j) := by
  rw [← Equiv.sum_comp (contrEquiv1 (dims wf) k rfl rfl).symm]
  refine Finset.sum_congr rfl fun m _ => ?_
  have hm := contrEquiv1_symm_val (dims wf) k rfl rfl m
  have el : (dims wf).lhsIdx (ix3 r i j) ((contrEquiv1 (dims wf) k rfl rfl).symm m) = ix3 r i m :=
    funext fun ax => Fin.ext (by
      match ax with
      | ⟨0, _⟩ => exact lhs_batch wf _ _
      | ⟨1, _⟩ => exact lhs_row wf _ _
      | ⟨2, _⟩ => exact (lhs_last wf _ _).trans hm)
  have er : (dims wf).rhsIdx (ix3 r i j) ((contrEquiv1 (dims wf) k rfl rfl).symm m) = ix3 r m j :=
    funext fun ax => Fin.ext (by
      match ax with
      | ⟨0, _⟩ => exact rhs_batch wf _ _
      | ⟨1, _⟩ => exact (rhs_mid wf _ _).trans hm
      | ⟨2, _⟩ => exact rhs_col wf _ _)
  rw [el, er]

/-- A kernel's batched product into a zero accumulator, at the exact values, read at (r, i, j). -/
theorem matmul_zero_apply {φ₁ φ₂ : FTy} (prec : Option ContractPrecision) (lhs : FVec Ideal ⟨3, ![B, n, k]⟩ φ₁)
    (rhs : FVec Ideal ⟨3, ![B, k, d]⟩ φ₂) (r : Fin B) (i : Fin n) (j : Fin d) :
    matmul (dims wf) prec lhs rhs (constant ⟨3, ![B, n, d]⟩ .f32 0x00000000#32) (ix3 r i j)
      = ∑ m : Fin k, lhs (ix3 r i m) * rhs (ix3 r m j) :=
  (Ideal.matmul_constant_zero_apply (dims wf) prec lhs rhs (ix3 r i j)).trans (sum_apply wf lhs rhs r i j)

/-- The host's batched product, at the exact values, read at (r, i, j). -/
theorem dotGeneral_apply {φ₁ φ₂ : FTy} (prec : Option ContractPrecision) (lhs : FVec Ideal ⟨3, ![B, n, k]⟩ φ₁)
    (rhs : FVec Ideal ⟨3, ![B, k, d]⟩ φ₂) (r : Fin B) (i : Fin n) (j : Fin d) :
    Host.dotGeneral (dims wf) prec lhs rhs (ix3 r i j) = ∑ m : Fin k, lhs (ix3 r i m) * rhs (ix3 r m j) :=
  (Ideal.dotGeneral_apply (dims wf) prec _ lhs rhs (ix3 r i j)).trans (sum_apply wf lhs rhs r i j)

end Cert.Lib.BatchMatDot

end
-- ==== Proof.LibKeepdims3.lean ====
/-
  A trailing unit axis on a batch of rows, read at an index.

  A per-row statistic of a batch of matrices has shape [B, n]. Keeping the reduced axis gives it the shape
  [B, n, 1], with the same entries in row-major order; broadcasting that column block along the last axis to
  [B, n, m] repeats each entry m times. So the cast reads (r, i) at (r, i, u), and the broadcast reads (r, i, 0)
  at (r, i, j). For any element type and any extents.
-/
import Idealize.ShloMosaic.Lib.Pipeline.Value
import Idealize.ShloMosaic.Lib.ValueIdx

noncomputable section

namespace Cert.Lib.Keepdims3

open Idealize.ShloMosaic Idealize.ShloMosaic.ValueIdx

variable {B n m : Nat}

/-- A [B, n] array viewed [B, n, 1] reads (r, i) at (r, i, u). -/
theorem castCol_apply {α : Type} (v : (⟨2, ![B, n]⟩ : Shape).Idx → α)
    (hc : (⟨2, ![B, n]⟩ : Shape).ShapeCasts ⟨3, ![B, n, 1]⟩) (r : Fin B) (i : Fin n) (u : Fin 1) :
    shapeCast ⟨3, ![B, n, 1]⟩ v hc (ix3 r i u) = v (ix2 r i) :=
  shapeCast_apply v hc _ _ (by
    have hu : u.val = 0 := by omega
    rw [Shape.rowMajor_val_three, Shape.rowMajor_val_two]
    show r.val * n + i.val = (r.val * n + i.val) * 1 + u.val
    rw [hu, Nat.mul_one, Nat.add_zero])

/-- A [B, n, 1] column block broadcast to [B, n, m] reads (r, i, 0) at (r, i, j). -/
theorem bcastCol_apply {α : Type} (v : (⟨3, ![B, n, 1]⟩ : Shape).Idx → α)
    (h : (⟨3, ![B, n, 1]⟩ : Shape).Broadcasts ⟨3, ![B, n, m]⟩) (r : Fin B) (i : Fin n) (j : Fin m) :
    broadcastTo ⟨3, ![B, n, m]⟩ v h (ix3 r i j) = v (ix3 r i (0 : Fin 1)) := by
  refine broadcastTo_apply v h (ix3 r i j) (ix3 r i (0 : Fin 1)) fun ax => ?_
  match ax with
  | ⟨0, _⟩ =>
    show r.val = if B = 1 then 0 else r.val
    split
    · have := r.isLt; omega
    · rfl
  | ⟨1, _⟩ =>
    show i.val = if n = 1 then 0 else i.val
    split
    · have := i.isLt; omega
    · rfl
  | ⟨2, _⟩ =>
    show (0 : Nat) = if (1 : Nat) = 1 then 0 else j.val
    rw [if_pos rfl]

end Cert.Lib.Keepdims3

end
-- ==== Proof.Pay1.lean ====
/-
  The body of the attention kernel, read at an index.

  One grid point of the second kernel takes a block of 256 query rows of one batch (1 x 256 x 1024), all 2048 key
  rows and all 2048 value rows of that batch, the output weight matrix and the output bias as a 1 x 1024 row. At the
  exact values (a change of float format is the identity, a product into a zero accumulator is the plain sum):

    score r m = (∑ j, q (0, r, j) * k (0, m, j)) * c             the scaled inner products,
    weight r m = exp (score r m - max over m, folded from -inf),   the unnormalised softmax weights,
    attn r d   = (∑ m, weight r m * v (0, m, d)) / (∑ m, weight r m),
    out r e    = (∑ d, attn r d * Wp (d, e)) + bp (0, e),

  and the stored block holds out r e at (0, r, e).
-/
import proofs.«132469_j61572651155726_2_alg».proof.Proof.Gen.KernelIdeal.Skeleton
import proofs.«132469_j61572651155726_2_alg».proof.Proof.Spec
import proofs.«132469_j61572651155726_2_alg».proof.Proof.LibPlainDot
import proofs.«132469_j61572651155726_2_alg».proof.Proof.LibRowBroadcasts
import proofs.«132469_j61572651155726_2_alg».proof.Proof.LibUnitAxis
import proofs.«132469_j61572651155726_2_alg».proof.Proof.LibBatchRowDot
import proofs.«132469_j61572651155726_2_alg».proof.Proof.LibBatchMatDot
import proofs.«132469_j61572651155726_2_alg».proof.Proof.LibKeepdims3
import Idealize.ShloMosaic.Lib.Pipeline.Value
import Idealize.ShloMosaic.Lib.ValueIdx
import Idealize.ShloMosaic.PureOps.Ideal.Laws

noncomputable section

namespace Cert.KernelIdeal.Pay1

open Cert.KernelIdeal Cert.KernelIdeal.Gen
open Idealize.ShloMosaic Idealize.ShloMosaic.ValueIdx
open scoped BigOperators

/-- The scaled score of query row r against key row m. -/
def scoreBlk (q : S1x256x1024.Idx → EReal) (k : S1x2048x1024.Idx → EReal) (r : Fin 256) (m : Fin 2048) : EReal :=
  (∑ j : Fin 1024, q (ix3 (0 : Fin 1) r j) * k (ix3 (0 : Fin 1) m j)) * Ideal.ofBits .f32 0x3D000000#32

/-- The unnormalised softmax weight of key row m for query row r. -/
def wBlk (q : S1x256x1024.Idx → EReal) (k : S1x2048x1024.Idx → EReal) (r : Fin 256) (m : Fin 2048) : EReal :=
  Ideal.exp (scoreBlk q k r m - Cert.Spec.rowMax (Ideal.ofBits .f32 0xFF800000#32) (scoreBlk q k r))

/-- The attention result of query row r, feature d: normalised once, after the weighted sum. -/
def attnBlk (q : S1x256x1024.Idx → EReal) (k v : S1x2048x1024.Idx → EReal) (r : Fin 256) (d : Fin 1024) : EReal :=
  Ideal.div (∑ m : Fin 2048, wBlk q k r m * v (ix3 (0 : Fin 1) m d)) (∑ m : Fin 2048, wBlk q k r m)

/-- The projected output of query row r, output column e. -/
def outBlk (q : S1x256x1024.Idx → EReal) (k v : S1x2048x1024.Idx → EReal) (Wp : S1024x1024.Idx → EReal)
    (bp : S1x1024.Idx → EReal) (r : Fin 256) (e : Fin 1024) : EReal :=
  (∑ d : Fin 1024, attnBlk q k v r d * Wp (ix2 d e)) + bp (ix2 (0 : Fin 1) e)

/-- The body's scaled scores, as it spells them. -/
def sVec (x0 : Vec Ideal S1x256x1024 .bf16) (x2 : Vec Ideal S1x2048x1024 .bf16) : FVec Ideal S1x256x2048 .f32 :=
  mulf (matmul dot_S1x256x1024_S1x2048x1024_S1x256x2048_2_2_1_1_0_0 none
      (shapeCast S1x256x1024 x0 shapeCasts_S1x256x1024_S1x256x1024 : FVec Ideal S1x256x1024 .bf16)
      (shapeCast S1x2048x1024 x2 shapeCasts_S1x2048x1024_S1x2048x1024 : FVec Ideal S1x2048x1024 .bf16)
      (constant S1x256x2048 .f32 0x00000000#32))
    (broadcast S1x256x2048 (Scalar.ofBits .f32 0x3D000000#32))

/-- The body's exponentials, as it spells them. -/
def eVec (x0 : Vec Ideal S1x256x1024 .bf16) (x2 : Vec Ideal S1x2048x1024 .bf16) : FVec Ideal S1x256x2048 .f32 :=
  exp (subf (sVec x0 x2) (broadcastTo S1x256x2048
    (shapeCast S1x256x1 (multiReduction .maximumf [2] S1x256 (sVec x0 x2) 0xFF800000#32 reduces_S1x256x2048_S1x256 (.inl rfl) rfl)
      shapeCasts_S1x256_S1x256x1) broadcasts_S1x256x1_S1x256x2048))

/-- The body's attention block, as it spells it. -/
def aVec (x0 : Vec Ideal S1x256x1024 .bf16) (x2 x15 : Vec Ideal S1x2048x1024 .bf16) : FVec Ideal S1x256x1024 .f32 :=
  divf (matmul dot_S1x256x2048_S1x2048x1024_S1x256x1024_2_1_1_2_0_0 none (truncf .bf16 (eVec x0 x2) bitsLt_bf16_f32)
      (shapeCast S1x2048x1024 x15 shapeCasts_S1x2048x1024_S1x2048x1024 : FVec Ideal S1x2048x1024 .bf16) (constant S1x256x1024 .f32 0x00000000#32))
    (broadcastTo S1x256x1024
      (shapeCast S1x256x1 (multiReduction .add [2] S1x256 (eVec x0 x2) 0x00000000#32 reduces_S1x256x2048_S1x256 (.inl rfl) rfl)
        shapeCasts_S1x256_S1x256x1) broadcasts_S1x256x1_S1x256x1024)

/-- The stored value is the output projection of the attention block plus the bias row, given a leading unit axis. -/
theorem pay1_eq (x0 : Vec Ideal S1x256x1024 .bf16) (x2 x15 : Vec Ideal S1x2048x1024 .bf16)
    (x22 : Vec Ideal S1024x1024 .bf16) (x25 : Vec Ideal S1x1024 .f32) :
    k1_pay1 (F := Ideal) x0 x2 x15 x22 x25
      = shapeCast S1x256x1024
          (addf (matmul dot_S256x1024_S1024x1024_S256x1024_1_0_0_1_n_n none
              (truncf .bf16 (shapeCast S256x1024 (aVec x0 x2 x15) shapeCasts_S1x256x1024_S256x1024) bitsLt_bf16_f32)
              (shapeCast S1024x1024 x22 shapeCasts_S1024x1024_S1024x1024 : FVec Ideal S1024x1024 .bf16) (constant S256x1024 .f32 0x00000000#32))
            (broadcastTo S256x1024 (shapeCast S1x1024 x25 shapeCasts_S1x1024_S1x1024 : FVec Ideal S1x1024 .f32) broadcasts_S1x1024_S256x1024))
          shapeCasts_S256x1024_S1x256x1024 := rfl

/-- The index a reduction over the last axis inserts is the row's index with the coordinate appended. -/
theorem lift_eq (r : Fin 256) (m : Fin 2048) :
    reduces_S1x256x2048_S1x256.lift (ix2 (0 : Fin 1) r) m = ix3 (0 : Fin 1) r m :=
  funext fun a => Fin.ext (by
    match a with
    | ⟨0, _⟩ => rfl
    | ⟨1, _⟩ => rfl
    | ⟨2, _⟩ => rfl)

/-- The scaled scores at (0, r, m). -/
theorem sVec_apply (x0 : Vec Ideal S1x256x1024 .bf16) (x2 : Vec Ideal S1x2048x1024 .bf16) (r : Fin 256) (m : Fin 2048) :
    sVec x0 x2 (ix3 (0 : Fin 1) r m) = scoreBlk x0 x2 r m := by
  unfold sVec scoreBlk
  refine (mulf_apply _ _ _).trans ?_
  refine congrArg₂ (· * ·) ?_ rfl
  refine (Ideal.matmul_constant_zero_apply _ none _ _ (ix3 (0 : Fin 1) r m)).trans ?_
  refine (Cert.Lib.BatchRowDot.sum_apply dot_S1x256x1024_S1x2048x1024_S1x256x2048_2_2_1_1_0_0_wf _ _ (0 : Fin 1) r m).trans ?_
  refine Finset.sum_congr rfl fun j _ => ?_
  rw [shapeCast_self, shapeCast_self]

/-- The row maximum of the scaled scores. -/
theorem max_apply (x0 : Vec Ideal S1x256x1024 .bf16) (x2 : Vec Ideal S1x2048x1024 .bf16) (r : Fin 256) :
    multiReduction .maximumf [2] S1x256 (sVec x0 x2) 0xFF800000#32 reduces_S1x256x2048_S1x256 (.inl rfl) rfl (ix2 (0 : Fin 1) r)
      = Cert.Spec.rowMax (Ideal.ofBits .f32 0xFF800000#32) (scoreBlk x0 x2 r) := by
  refine (Ideal.multiReduction_maximumf_single (sVec x0 x2) _ reduces_S1x256x2048_S1x256 _ _ (ix2 (0 : Fin 1) r)).trans ?_
  unfold Cert.Spec.rowMax
  show (Finset.univ : Finset (Fin 2048)).fold max (Ideal.ofBits .f32 0xFF800000#32)
      (fun m => sVec x0 x2 (reduces_S1x256x2048_S1x256.lift (ix2 (0 : Fin 1) r) m)) = _
  refine congrArg (fun f => (Finset.univ : Finset (Fin 2048)).fold max (Ideal.ofBits .f32 0xFF800000#32) f) (funext fun (m : Fin 2048) => ?_)
  rw [lift_eq]
  exact sVec_apply x0 x2 r m

/-- The exponentials at (0, r, m). -/
theorem eVec_apply (x0 : Vec Ideal S1x256x1024 .bf16) (x2 : Vec Ideal S1x2048x1024 .bf16) (r : Fin 256) (m : Fin 2048) :
    eVec x0 x2 (ix3 (0 : Fin 1) r m) = wBlk x0 x2 r m := by
  unfold eVec wBlk
  show Ideal.exp (sVec x0 x2 (ix3 (0 : Fin 1) r m) - broadcastTo S1x256x2048 _ broadcasts_S1x256x1_S1x256x2048 (ix3 (0 : Fin 1) r m)) = _
  rw [sVec_apply, Cert.Lib.Keepdims3.bcastCol_apply, Cert.Lib.Keepdims3.castCol_apply, max_apply]

/-- The sum of a row's exponentials. -/
theorem sum_apply (x0 : Vec Ideal S1x256x1024 .bf16) (x2 : Vec Ideal S1x2048x1024 .bf16) (r : Fin 256) :
    multiReduction .add [2] S1x256 (eVec x0 x2) 0x00000000#32 reduces_S1x256x2048_S1x256 (.inl rfl) rfl (ix2 (0 : Fin 1) r)
      = ∑ m : Fin 2048, wBlk x0 x2 r m := by
  refine (Ideal.multiReduction_add_single (eVec x0 x2) _ reduces_S1x256x2048_S1x256 _ _ (ix2 (0 : Fin 1) r)).trans ?_
  show ∑ m : Fin 2048, eVec x0 x2 (reduces_S1x256x2048_S1x256.lift (ix2 (0 : Fin 1) r) m) = _
  refine Finset.sum_congr rfl fun (m : Fin 2048) _ => ?_
  rw [lift_eq]
  exact eVec_apply x0 x2 r m

/-- The attention block at (0, r, d). -/
theorem aVec_apply (x0 : Vec Ideal S1x256x1024 .bf16) (x2 x15 : Vec Ideal S1x2048x1024 .bf16) (r : Fin 256) (d : Fin 1024) :
    aVec x0 x2 x15 (ix3 (0 : Fin 1) r d) = attnBlk x0 x2 x15 r d := by
  unfold aVec attnBlk
  refine (divf_apply _ _ _).trans ?_
  refine congrArg₂ Ideal.div ?_ ?_
  · refine (Cert.Lib.BatchMatDot.matmul_zero_apply dot_S1x256x2048_S1x2048x1024_S1x256x1024_2_1_1_2_0_0_wf none _ _ (0 : Fin 1) r d).trans ?_
    refine Finset.sum_congr rfl fun m _ => ?_
    rw [shapeCast_self]
    exact congrArg (· * x15 (ix3 (0 : Fin 1) m d)) (eVec_apply x0 x2 r m)
  · rw [Cert.Lib.Keepdims3.bcastCol_apply, Cert.Lib.Keepdims3.castCol_apply, sum_apply]

/-- The stored block at (u, r, e). -/
theorem pay1_apply (x0 : Vec Ideal S1x256x1024 .bf16) (x2 x15 : Vec Ideal S1x2048x1024 .bf16)
    (x22 : Vec Ideal S1024x1024 .bf16) (x25 : Vec Ideal S1x1024 .f32) (u : Fin 1) (r : Fin 256) (e : Fin 1024) :
    k1_pay1 (F := Ideal) x0 x2 x15 x22 x25 (ix3 u r e) = outBlk x0 x2 x15 x22 x25 r e := by
  rw [pay1_eq]
  unfold outBlk
  refine (Cert.Lib.UnitAxis.add_apply _ shapeCasts_S256x1024_S1x256x1024 u r e).trans ?_
  refine (addf_apply _ _ _).trans ?_
  refine congrArg₂ (· + ·) ?_ ?_
  · refine (Cert.Lib.PlainDot.matmul_zero_apply dot_S256x1024_S1024x1024_S256x1024_1_0_0_1_n_n_wf none _ _ r e).trans ?_
    refine Finset.sum_congr rfl fun d _ => ?_
    rw [shapeCast_self]
    refine congrArg (· * x22 (ix2 d e)) ?_
    show shapeCast S256x1024 (aVec x0 x2 x15) shapeCasts_S1x256x1024_S256x1024 (ix2 r d) = _
    rw [Cert.Lib.UnitAxis.drop_apply]
    exact aVec_apply x0 x2 x15 r d
  · refine (Cert.Lib.Rows.bcastRow_apply _ broadcasts_S1x1024_S256x1024 r e).trans ?_
    rw [shapeCast_self]

end Cert.KernelIdeal.Pay1

end
-- ==== Proof.Blocks1.lean ====
/-
  The attention kernel's output array after its region.

  The grid of the second kernel has 4 x 8 points; point t works on batch b = t / 8 and query rows
  256 (t mod 8) .. 256 (t mod 8) + 255: it loads that block of the query array, all key rows and all value rows of
  batch b, the whole output weight matrix and bias row, and writes back the same block of the output array. Entry
  (b, s, e) of the output is therefore written exactly by point 8 b + s / 256, and after the region the output holds,
  at (b, s, e), the attention of query row s of batch b against all keys and values of that batch, projected — as one
  function of the arrays the region was entered with. The statements are over any contents V at the region's entry.
-/
import proofs.«132469_j61572651155726_2_alg».proof.Proof.Gen.KernelIdeal.Frame
import proofs.«132469_j61572651155726_2_alg».proof.Proof.Pay1
import Idealize.ShloMosaic.Lib.Pipeline.Value
import Idealize.ShloMosaic.Lib.ValueIdx

set_option maxRecDepth 16384

noncomputable section

namespace Cert.KernelIdeal.Blocks1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The scaled score of query row r against key row m of batch b, over whole arrays. -/
def scoreArr (Q K : S4x2048x1024.Idx → EReal) (b : Fin 4) (r m : Fin 2048) : EReal :=
  (∑ j : Fin 1024, Q (ix3 b r j) * K (ix3 b m j)) * Ideal.ofBits .f32 0x3D000000#32

/-- The unnormalised softmax weight. -/
def wArr (Q K : S4x2048x1024.Idx → EReal) (b : Fin 4) (r m : Fin 2048) : EReal :=
  Ideal.exp (scoreArr Q K b r m - Cert.Spec.rowMax (Ideal.ofBits .f32 0xFF800000#32) (scoreArr Q K b r))

/-- The attention result, normalised once after the weighted sum. -/
def attnArr (Q K Vv : S4x2048x1024.Idx → EReal) (b : Fin 4) (r : Fin 2048) (d : Fin 1024) : EReal :=
  Ideal.div (∑ m : Fin 2048, wArr Q K b r m * Vv (ix3 b m d)) (∑ m : Fin 2048, wArr Q K b r m)

/-- The projected output. -/
def outArr (Q K Vv : S4x2048x1024.Idx → EReal) (Wp : S1024x1024.Idx → EReal) (bp : S1x1024.Idx → EReal)
    (b : Fin 4) (r : Fin 2048) (e : Fin 1024) : EReal :=
  (∑ d : Fin 1024, attnArr Q K Vv b r d * Wp (ix2 d e)) + bp (ix2 (0 : Fin 1) e)

/-- One block: if the loaded query rows, key rows and value rows are those of batch b of the arrays (query row r of
    the block being row s of the array) and the loaded weight and bias are the whole arrays, the stored entry
    (u, r, e) is the projected attention at (b, s, e). -/
theorem block_apply (Q K Vv : S4x2048x1024.Idx → EReal) (Wp : S1024x1024.Idx → EReal) (bp : S1x1024.Idx → EReal)
    (x0 : S1x256x1024.Idx → EReal) (x2 x15 : S1x2048x1024.Idx → EReal) (x22 : S1024x1024.Idx → EReal) (x25 : S1x1024.Idx → EReal)
    (b : Fin 4) (s : Fin 2048) (e' : Fin 1024) (u : Fin 1) (r : Fin 256) (e : Fin 1024)
    (h0 : ∀ j : Fin 1024, x0 (ix3 (0 : Fin 1) r j) = Q (ix3 b s j))
    (h1 : ∀ (m : Fin 2048) (j : Fin 1024), x2 (ix3 (0 : Fin 1) m j) = K (ix3 b m j))
    (h2 : ∀ (m : Fin 2048) (d : Fin 1024), x15 (ix3 (0 : Fin 1) m d) = Vv (ix3 b m d))
    (h3 : x22 = Wp) (h4 : x25 = bp) (he : e' = e) :
    k1_pay1 (F := Ideal) x0 x2 x15 x22 x25 (ix3 u r e) = outArr Q K Vv Wp bp b s e' := by
  subst h3 h4 he
  refine (Pay1.pay1_apply x0 x2 x15 x22 x25 u r e').trans ?_
  have hs : Pay1.scoreBlk x0 x2 r = scoreArr Q K b s := by
    funext m
    unfold Pay1.scoreBlk scoreArr
    exact congrArg (· * Ideal.ofBits .f32 0x3D000000#32) (Finset.sum_congr rfl fun j _ => by rw [h0 j, h1 m j])
  have hw : Pay1.wBlk x0 x2 r = wArr Q K b s := by
    funext m
    unfold Pay1.wBlk wArr
    rw [hs]
  have ha : Pay1.attnBlk x0 x2 x15 r = attnArr Q K Vv b s := by
    funext d
    unfold Pay1.attnBlk attnArr
    rw [hw]
    exact congrArg (fun z => Ideal.div z (∑ m : Fin 2048, wArr Q K b s m)) (Finset.sum_congr rfl fun m _ => by rw [h2 m d])
  unfold Pay1.outBlk outArr
  rw [ha]

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the query and output blocks move with both grid coordinates, the key and value
    blocks with the batch coordinate only, the weight and bias stay. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 8 ∧ win1_5.index t (1 : Fin 3) = t.val % 8 ∧ win1_5.index t (2 : Fin 3) = 0 :=
  (by decide +kernel : ∀ t : Fin grid1.N, _)

variable (V : (c : Dev nD) → (b : Ref sig .tc) → Buf (Elt Ideal) ((c : Thread nD τ).loc b))

/-- Point t writes back its block of the projected attention of the arrays as the region finds them. -/
theorem flushed5 (c : Dev nD) (t : Fin cfg1.N) :
    (dat1 V c).flushed 5 t = ((cfg1.win 5).blk t).view.read (Elt Ideal)
      (fun i => outArr (V c main_v5) (V c main_v6) (V c main_v7) (V c main_v2) (V c main_v8) (i 0) (i 1) (i 2)) := by
  show (cfg1.win 5).cut (grid1.coords t) ((dat1 V c).after 5 t) = _
  rw [after1_5]
  unfold out1_5
  rw [View.canon_unit_zero hz3]
  simp only [View.ld_unit_zero (S := S1x256x1024) hz3, View.ld_unit_zero (S := S1x2048x1024) hz3,
    View.ld_unit_zero (S := S1024x1024) hz2, View.ld_unit_zero (S := S1x1024) hz2]
  obtain ⟨e00, e01, e02, e10, e11, e12, e20, e21, e22, e30, e31, e40, e41, e50, e51, e52⟩ := idx_facts t
  funext j
  have hj0 : (j 0).val < 1 := (j 0).isLt
  refine (congrArg (k1_pay1 (F := Ideal) (iblk1 V c 0 t) (iblk1 V c 1 t) (iblk1 V c 2 t) (iblk1 V c 3 t) (iblk1 V c 4 t))
    (eq_ix3 (n0 := 1) (n1 := 256) (n2 := 1024) j)).trans ?_
  refine block_apply (V c main_v5) (V c main_v6) (V c main_v7) (V c main_v2) (V c main_v8)
    (iblk1 V c 0 t) (iblk1 V c 1 t) (iblk1 V c 2 t) (iblk1 V c 3 t) (iblk1 V c 4 t)
    ((((cfg1.win 5).blk t).view.emb j) 0) ((((cfg1.win 5).blk t).view.emb j) 1) ((((cfg1.win 5).blk t).view.emb j) 2)
    (j 0) (j 1) (j 2) (fun jj => ?_) (fun m jj => ?_) (fun m d => ?_) ?_ ?_ ?_
  · show V c main_v5 (((cfg1.win 0).blk t).view.emb (ix3 (0 : Fin 1) (j 1) jj))
      = V c main_v5 (ix3 ((((cfg1.win 5).blk t).view.emb j) 0) ((((cfg1.win 5).blk t).view.emb j) 1) jj)
    refine congrArg (V c main_v5) (funext fun a => Fin.ext ?_)
    match a with
    | ⟨0, _⟩ => show win1_0.index t (0 : Fin 3) * 1 + 1 * 0 = win1_5.index t (0 : Fin 3) * 1 + 1 * (j 0).val; omega
    | ⟨1, _⟩ => show win1_0.index t (1 : Fin 3) * 256 + 1 * (j 1).val = win1_5.index t (1 : Fin 3) * 256 + 1 * (j 1).val; omega
    | ⟨2, _⟩ => show win1_0.index t (2 : Fin 3) * 1024 + 1 * jj.val = jj.val; omega
  · show V c main_v6 (((cfg1.win 1).blk t).view.emb (ix3 (0 : Fin 1) m jj))
      = V c main_v6 (ix3 ((((cfg1.win 5).blk t).view.emb j) 0) m jj)
    refine congrArg (V c main_v6) (funext fun a => Fin.ext ?_)
    match a with
    | ⟨0, _⟩ => show win1_1.index t (0 : Fin 3) * 1 + 1 * 0 = win1_5.index t (0 : Fin 3) * 1 + 1 * (j 0).val; omega
    | ⟨1, _⟩ => show win1_1.index t (1 : Fin 3) * 2048 + 1 * m.val = m.val; omega
    | ⟨2, _⟩ => show win1_1.index t (2 : Fin 3) * 1024 + 1 * jj.val = jj.val; omega
  · show V c main_v7 (((cfg1.win 2).blk t).view.emb (ix3 (0 : Fin 1) m d))
      = V c main_v7 (ix3 ((((cfg1.win 5).blk t).view.emb j) 0) m d)
    refine congrArg (V c main_v7) (funext fun a => Fin.ext ?_)
    match a with
    | ⟨0, _⟩ => show win1_2.index t (0 : Fin 3) * 1 + 1 * 0 = win1_5.index t (0 : Fin 3) * 1 + 1 * (j 0).val; omega
    | ⟨1, _⟩ => show win1_2.index t (1 : Fin 3) * 2048 + 1 * m.val = m.val; omega
    | ⟨2, _⟩ => show win1_2.index t (2 : Fin 3) * 1024 + 1 * d.val = d.val; omega
  · funext y
    show V c main_v2 (((cfg1.win 3).blk t).view.emb y) = V c main_v2 y
    refine congrArg (V c main_v2) (funext fun a => Fin.ext ?_)
    match a with
    | ⟨0, _⟩ => show win1_3.index t (0 : Fin 2) * 1024 + 1 * (y 0).val = (y 0).val; omega
    | ⟨1, _⟩ => show win1_3.index t (1 : Fin 2) * 1024 + 1 * (y 1).val = (y 1).val; omega
  · funext y
    show V c main_v8 (((cfg1.win 4).blk t).view.emb y) = V c main_v8 y
    refine congrArg (V c main_v8) (funext fun a => Fin.ext ?_)
    match a with
    | ⟨0, _⟩ => show win1_4.index t (0 : Fin 2) * 1 + 1 * (y 0).val = (y 0).val; omega
    | ⟨1, _⟩ => show win1_4.index t (1 : Fin 2) * 1024 + 1 * (y 1).val = (y 1).val; omega
  · apply Fin.ext
    show win1_5.index t (2 : Fin 3) * 1024 + 1 * (j 2).val = (j 2).val
    omega

/-- An index of the output array is in point t's block iff each coordinate is in the block's range. -/
theorem mem_blk5 (t : Fin cfg1.N) (i : S4x2048x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v9).slice (win1_5.rect t)).set ↔ _
  rw [View.set_slice_whole, Rect.mem_set_unit]
  exact Iff.rfl

/-- Entry (b, s, e) is written back by point 8 b + s / 256. -/
theorem cover5 (i : S4x2048x1024.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  have hN : (i 0).val * 8 + (i 1).val / 256 < grid1.N := by rw [N_1]; omega
  refine ⟨⟨(i 0).val * 8 + (i 1).val / 256, hN⟩, flush1_5 _, ?_⟩
  rw [mem_blk5]
  obtain ⟨e00, e01, e02, e10, e11, e12, e20, e21, e22, e30, e31, e40, e41, e50, e51, e52⟩ :=
    idx_facts ⟨(i 0).val * 8 + (i 1).val / 256, hN⟩
  have q0 : win1_5.index ⟨(i 0).val * 8 + (i 1).val / 256, hN⟩ (0 : Fin 3) = ((i 0).val * 8 + (i 1).val / 256) / 8 := e50
  have q1 : win1_5.index ⟨(i 0).val * 8 + (i 1).val / 256, hN⟩ (1 : Fin 3) = ((i 0).val * 8 + (i 1).val / 256) % 8 := e51
  intro a
  match a with
  | ⟨0, _⟩ =>
    show win1_5.index ⟨(i 0).val * 8 + (i 1).val / 256, hN⟩ (0 : Fin 3) * 1 ≤ (i 0).val ∧ (i 0).val < win1_5.index ⟨(i 0).val * 8 + (i 1).val / 256, hN⟩ (0 : Fin 3) * 1 + 1
    rw [q0]; omega
  | ⟨1, _⟩ =>
    show win1_5.index ⟨(i 0).val * 8 + (i 1).val / 256, hN⟩ (1 : Fin 3) * 256 ≤ (i 1).val ∧ (i 1).val < win1_5.index ⟨(i 0).val * 8 + (i 1).val / 256, hN⟩ (1 : Fin 3) * 256 + 256
    rw [q1]; omega
  | ⟨2, _⟩ =>
    show win1_5.index ⟨(i 0).val * 8 + (i 1).val / 256, hN⟩ (2 : Fin 3) * 1024 ≤ (i 2).val ∧ (i 2).val < win1_5.index ⟨(i 0).val * 8 + (i 1).val / 256, hN⟩ (2 : Fin 3) * 1024 + 1024
    rw [e52]; omega

/-- After the region the output array holds the projected attention of the arrays it was entered with. -/
theorem arr5 (c : Dev nD) :
    (dat1 V c).arrAt 5 cfg1.N
      = fun i => outArr (V c main_v5) (V c main_v6) (V c main_v7) (V c main_v2) (V c main_v8) (i 0) (i 1) (i 2) :=
  (dat1 V c).arrAt_eq_of_cover 5 _ (fun t _ => flushed5 V c t) cover5

end Cert.KernelIdeal.Blocks1

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.Host.lean ====
/-
  The host operations around the two kernel launches, read at an index.

  Before the first launch the program reshapes the input x from 4 × 2048 × 1024 to 8192 × 1024 (rows in row-major
  order: token s of batch b becomes flat row 2048 · b + s), narrows the two weight matrices to a shorter float
  format, and reshapes the bias of length 3072 to a 1 × 3072 row. Between the launches it reshapes the three
  8192 × 1024 results of the first launch back to 4 × 2048 × 1024 and the output bias of length 1024 to a 1 × 1024
  row.

  On the extended reals a change of float format is the identity, and a reshape keeps the row-major order of the
  entries, so each of these arrays, read at an index, is an entry of an argument array (or of a result of the
  first launch) at the corresponding index. A buffer that no operation of a stretch writes holds after the
  stretch what it held before, and a launch changes only the arrays of its own windows; this carries the narrowed
  output weights from before the first launch, and the output bias from the launch memory, to the second launch.
-/
import proofs.«132469_j61572651155726_2_alg».proof.Proof.Gen.KernelIdeal.Frame
import proofs.«132469_j61572651155726_2_alg».proof.Proof.LibMergeRows
import Idealize.ShloMosaic.Lib.Pipeline.Value
import Idealize.ShloMosaic.Lib.ValueIdx
import Idealize.ShloMosaic.Lib.StableHlo.Run

noncomputable section

namespace Cert.KernelIdeal.Host

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- Token s of batch b as a flat row: 2048 · b + s of the 8192 = 4 · 2048 rows. -/
abbrev fr : Fin 4 → Fin 2048 → Fin 8192 := Cert.Lib.MergeRows.flatRow (a := 4) (b := 2048) (r := 8192) rfl

/-! ### Before the first launch -/

/-- The flattened input is the reshape of the argument x. -/
theorem v0_eq : (V1 m ρ c main_v0 : S8192x1024.Idx → EReal)
    = shapeCast S8192x1024 (m ((c : Thread nD τ).loc main_arg0)) shapeCasts_S4x2048x1024_S8192x1024 := by
  dsimp only [V1, W1, hostOps0]; after_results; all_goals rfl

/-- The flattened input at (2048 · b + s, i) is x at (b, s, i). -/
theorem v0_apply (b : Fin 4) (s : Fin 2048) (i : Fin 1024) :
    V1 m ρ c main_v0 (ix2 (fr b s) i) = m ((c : Thread nD τ).loc main_arg0) (ix3 b s i) :=
  (congrFun (v0_eq m ρ c) _).trans (Cert.Lib.MergeRows.merge_apply rfl _ _ b s i)

/-- The narrowed projection weights are the argument W: narrowing is the identity on the extended reals. -/
theorem v1_eq : (V1 m ρ c main_v1 : S1024x3072.Idx → EReal) = m ((c : Thread nD τ).loc main_arg1) := by
  dsimp only [V1, W1, hostOps0]; after_results; all_goals rfl

theorem v1_apply (i : Fin 1024) (j : Fin 3072) :
    (V1 m ρ c main_v1 (ix2 i j) : EReal) = m ((c : Thread nD τ).loc main_arg1) (ix2 i j) :=
  congrFun (v1_eq m ρ c) _

/-- The narrowed output weights are the argument Wp. -/
theorem v2_eq : (V1 m ρ c main_v2 : S1024x1024.Idx → EReal) = m ((c : Thread nD τ).loc main_arg3) := by
  dsimp only [V1, W1, hostOps0]; after_results; all_goals rfl

theorem v2_apply (d e : Fin 1024) :
    (V1 m ρ c main_v2 (ix2 d e) : EReal) = m ((c : Thread nD τ).loc main_arg3) (ix2 d e) :=
  congrFun (v2_eq m ρ c) _

/-- The bias row is the reshape of the argument bias. -/
theorem v3_eq : (V1 m ρ c main_v3 : S1x3072.Idx → EReal)
    = shapeCast S1x3072 (m ((c : Thread nD τ).loc main_arg2)) shapeCasts_S3072_S1x3072 := by
  dsimp only [V1, W1, hostOps0]; after_results; all_goals rfl

/-- The bias row at (0, j) is the bias at j. -/
theorem v3_apply (j : Fin 3072) :
    V1 m ρ c main_v3 (ix2 (0 : Fin 1) j) = m ((c : Thread nD τ).loc main_arg2) (ix1 j) :=
  (congrFun (v3_eq m ρ c) _).trans (Cert.Lib.MergeRows.row_apply _ _ j)

/-! ### Between the launches -/

/-- The first result of the first launch, split back into batches. -/
theorem v5_eq : (V3 m ρ c main_v5 : S4x2048x1024.Idx → EReal)
    = shapeCast S4x2048x1024 (W2 m ρ c (Proc.devRef .tc main_v4_0)) shapeCasts_S8192x1024_S4x2048x1024 := by
  dsimp only [V3, W3, hostOps1]; after_results; all_goals rfl

/-- At (b, s, d) it is the flat result at (2048 · b + s, d). -/
theorem v5_apply (b : Fin 4) (s : Fin 2048) (d : Fin 1024) :
    V3 m ρ c main_v5 (ix3 b s d) = W2 m ρ c (Proc.devRef .tc main_v4_0) (ix2 (fr b s) d) :=
  (congrFun (v5_eq m ρ c) _).trans (Cert.Lib.MergeRows.split_apply rfl _ _ b s d)

/-- The second result of the first launch, split back into batches. -/
theorem v6_eq : (V3 m ρ c main_v6 : S4x2048x1024.Idx → EReal)
    = shapeCast S4x2048x1024 (W2 m ρ c (Proc.devRef .tc main_v4_1)) shapeCasts_S8192x1024_S4x2048x1024 := by
  dsimp only [V3, W3, hostOps1]; after_results; all_goals rfl

theorem v6_apply (b : Fin 4) (s : Fin 2048) (d : Fin 1024) :
    V3 m ρ c main_v6 (ix3 b s d) = W2 m ρ c (Proc.devRef .tc main_v4_1) (ix2 (fr b s) d) :=
  (congrFun (v6_eq m ρ c) _).trans (Cert.Lib.MergeRows.split_apply rfl _ _ b s d)

/-- The third result of the first launch, split back into batches. -/
theorem v7_eq : (V3 m ρ c main_v7 : S4x2048x1024.Idx → EReal)
    = shapeCast S4x2048x1024 (W2 m ρ c (Proc.devRef .tc main_v4_2)) shapeCasts_S8192x1024_S4x2048x1024 := by
  dsimp only [V3, W3, hostOps1]; after_results; all_goals rfl

theorem v7_apply (b : Fin 4) (s : Fin 2048) (d : Fin 1024) :
    V3 m ρ c main_v7 (ix3 b s d) = W2 m ρ c (Proc.devRef .tc main_v4_2) (ix2 (fr b s) d) :=
  (congrFun (v7_eq m ρ c) _).trans (Cert.Lib.MergeRows.split_apply rfl _ _ b s d)

/-- The narrowed output weights reach the second launch unchanged: the four reshapes between the launches write
    other buffers, and the first launch changes only its own windows' arrays, of which this is none. -/
theorem v2_entry_eq : (V3 m ρ c main_v2 : S1024x1024.Idx → EReal) = m ((c : Thread nD τ).loc main_arg3) := by
  have h3 : (V3 m ρ c main_v2 : S1024x1024.Idx → EReal) = W2 m ρ c (Proc.devRef .tc main_v2) := by
    dsimp only [V3, W3, hostOps1]; after_results; all_goals rfl
  rw [h3, W2_of_ne m ρ c main_v2 (by decide)]
  exact v2_eq m ρ c

theorem v2_entry (d e : Fin 1024) :
    (V3 m ρ c main_v2 (ix2 d e) : EReal) = m ((c : Thread nD τ).loc main_arg3) (ix2 d e) :=
  congrFun (v2_entry_eq m ρ c) _

/-- The output bias is still as launched when the first launch returns: no operation before it writes that buffer
    and it is none of the launch's windows' arrays. -/
theorem W2_main_arg4 : (W2 m ρ c (Proc.devRef .tc main_arg4) : S1024.Idx → EReal) = m ((c : Thread nD τ).loc main_arg4) := by
  rw [W2_of_ne m ρ c main_arg4 (by decide)]
  dsimp only [W1, hostOps0]; after_results; all_goals rfl

/-- The output bias row is the reshape of the argument bp. -/
theorem v8_eq : (V3 m ρ c main_v8 : S1x1024.Idx → EReal)
    = shapeCast S1x1024 (m ((c : Thread nD τ).loc main_arg4)) shapeCasts_S1024_S1x1024 := by
  have h3 : (V3 m ρ c main_v8 : S1x1024.Idx → EReal)
      = shapeCast S1x1024 (W2 m ρ c (Proc.devRef .tc main_arg4)) shapeCasts_S1024_S1x1024 := by
    dsimp only [V3, W3, hostOps1]; after_results; all_goals rfl
  rw [h3, W2_main_arg4 m ρ c]

/-- The output bias row at (0, e) is bp at e. -/
theorem v8_apply (e : Fin 1024) :
    V3 m ρ c main_v8 (ix2 (0 : Fin 1) e) = m ((c : Thread nD τ).loc main_arg4) (ix1 e) :=
  (congrFun (v8_eq m ρ c) _).trans (Cert.Lib.MergeRows.row_apply _ _ e)

end Cert.KernelIdeal.Host

end
-- ==== Proof.Glue.lean ====
/-
  The kernel program's result array as one function of its argument arrays.

  Reading the program from the end: the result is the attention kernel's output array, which (Blocks1) holds the
  projected attention of the arrays that region was entered with; those are the three arrays the projection kernel
  left (Blocks0: the query, key and value columns of the fused projection of what THAT region was entered with), each
  reshaped from 8192 rows to 4 batches of 2048 rows, the output weight in the narrower float format (the same numbers
  at the exact values) and the output bias as a row; and the projection kernel was entered with the token array
  reshaped to 8192 rows, the weight matrix in the narrower format and the bias as a row. Flat row 2048 b + s is token
  s of batch b throughout, so the composite is arrangement K of the specification at the program's literals.
-/
import proofs.«132469_j61572651155726_2_alg».proof.Proof.Gen.KernelIdeal.Frame
import proofs.«132469_j61572651155726_2_alg».proof.Proof.Blocks0
import proofs.«132469_j61572651155726_2_alg».proof.Proof.Blocks1
import proofs.«132469_j61572651155726_2_alg».proof.Proof.Host
import proofs.«132469_j61572651155726_2_alg».proof.Proof.Spec
import proofs.«132469_j61572651155726_2_alg».proof.Proof.LibMergeRows
import Idealize.ShloMosaic.Lib.ValueIdx

set_option maxRecDepth 16384

noncomputable section

namespace Cert.KernelIdeal.Glue

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg) (c : Dev nD)

/-- The token array by batch, token and feature. -/
abbrev aX : Fin 4 → Fin 2048 → Fin 1024 → EReal := fun b s i => m ((c : Thread nD τ).loc main_arg0) (ix3 b s i)
/-- The fused projection weight. -/
abbrev aW : Fin 1024 → Fin 3072 → EReal := fun i j => m ((c : Thread nD τ).loc main_arg1) (ix2 i j)
/-- The fused projection bias. -/
abbrev aB : Fin 3072 → EReal := fun j => m ((c : Thread nD τ).loc main_arg2) (ix1 j)
/-- The output projection weight. -/
abbrev aWp : Fin 1024 → Fin 1024 → EReal := fun d e => m ((c : Thread nD τ).loc main_arg3) (ix2 d e)
/-- The output projection bias. -/
abbrev aBp : Fin 1024 → EReal := fun e => m ((c : Thread nD τ).loc main_arg4) (ix1 e)

/-- Flat row 2048 b + s of the 8192 token rows. -/
abbrev fr (b : Fin 4) (s : Fin 2048) : Fin 8192 := Cert.Lib.MergeRows.flatRow (a := 4) (b := 2048) (r := 8192) rfl b s

/-- The fused projection of the first region's entry arrays at flat row 2048 b + s is the specification's projection
    of the arguments at (b, s). -/
theorem proj_eq (b : Fin 4) (s : Fin 2048) (j : Fin 3072) :
    Blocks0.projArr (V1 m ρ c main_v0) (V1 m ρ c main_v1) (V1 m ρ c main_v3) (fr b s) j
      = Cert.Spec.proj (aX m c) (aW m c) (aB m c) b s j := by
  unfold Blocks0.projArr Cert.Spec.proj
  rw [Host.v3_apply]
  refine congrArg (· + m ((c : Thread nD τ).loc main_arg2) (ix1 j)) (Finset.sum_congr rfl fun i _ => ?_)
  rw [Host.v0_apply, Host.v1_apply]

/-- The second region's query array is the query columns of the projection. -/
theorem q_eq (b : Fin 4) (s : Fin 2048) (d : Fin 1024) :
    V3 m ρ c main_v5 (ix3 b s d) = Cert.Spec.proj (aX m c) (aW m c) (aB m c) b s (Cert.Spec.colQ d) := by
  rw [Host.v5_apply]
  exact (congrFun ((W2_arr m ρ c 3).trans (Blocks0.arr3 (V1 m ρ) c)) (ix2 (fr b s) d)).trans (proj_eq m ρ c b s _)

/-- The second region's key array is the key columns of the projection. -/
theorem k_eq (b : Fin 4) (s : Fin 2048) (d : Fin 1024) :
    V3 m ρ c main_v6 (ix3 b s d) = Cert.Spec.proj (aX m c) (aW m c) (aB m c) b s (Cert.Spec.colK d) := by
  rw [Host.v6_apply]
  exact (congrFun ((W2_arr m ρ c 4).trans (Blocks0.arr4 (V1 m ρ) c)) (ix2 (fr b s) d)).trans (proj_eq m ρ c b s _)

/-- The second region's value array is the value columns of the projection. -/
theorem v_eq (b : Fin 4) (s : Fin 2048) (d : Fin 1024) :
    V3 m ρ c main_v7 (ix3 b s d) = Cert.Spec.proj (aX m c) (aW m c) (aB m c) b s (Cert.Spec.colV d) := by
  rw [Host.v7_apply]
  exact (congrFun ((W2_arr m ρ c 5).trans (Blocks0.arr5 (V1 m ρ) c)) (ix2 (fr b s) d)).trans (proj_eq m ρ c b s _)

/-- The scaled scores. -/
theorem score_eq (b : Fin 4) (r : Fin 2048) :
    Blocks1.scoreArr (V3 m ρ c main_v5) (V3 m ρ c main_v6) b r
      = Cert.Spec.sK (aX m c) (aW m c) (aB m c) (Ideal.ofBits .f32 0x3D000000#32) b r := by
  funext k
  unfold Blocks1.scoreArr Cert.Spec.sK Cert.Spec.score
  exact congrArg (· * Ideal.ofBits .f32 0x3D000000#32) (Finset.sum_congr rfl fun j _ => by rw [q_eq, k_eq])

/-- The attention result. -/
theorem attn_eq (b : Fin 4) (r : Fin 2048) (d : Fin 1024) :
    Blocks1.attnArr (V3 m ρ c main_v5) (V3 m ρ c main_v6) (V3 m ρ c main_v7) b r d
      = Cert.Spec.attnK (aX m c) (aW m c) (aB m c) (Ideal.ofBits .f32 0x3D000000#32) (Ideal.ofBits .f32 0xFF800000#32) b r d := by
  unfold Blocks1.attnArr Cert.Spec.attnK Blocks1.wArr
  rw [score_eq]
  exact congrArg (fun z => Ideal.div z _) (Finset.sum_congr rfl fun k _ => by rw [v_eq])

/-- The projected output. -/
theorem out_eq (b : Fin 4) (r : Fin 2048) (e : Fin 1024) :
    Blocks1.outArr (V3 m ρ c main_v5) (V3 m ρ c main_v6) (V3 m ρ c main_v7) (V3 m ρ c main_v2) (V3 m ρ c main_v8) b r e
      = Cert.Spec.outK (Ideal.ofBits .f32 0x3D000000#32) (Ideal.ofBits .f32 0xFF800000#32)
          (aX m c) (aW m c) (aB m c) (aWp m c) (aBp m c) b r e := by
  unfold Blocks1.outArr Cert.Spec.outK Cert.Spec.outOf
  rw [Host.v8_apply]
  refine congrArg (· + m ((c : Thread nD τ).loc main_arg4) (ix1 e)) (Finset.sum_congr rfl fun d _ => ?_)
  rw [attn_eq, Host.v2_entry]

/-- THE RESULT ARRAY after the run, as arrangement K of the argument arrays. -/
theorem result_eq (i : S4x2048x1024.Idx) :
    W4 m ρ c (Proc.devRef .tc main_v9) i
      = Cert.Spec.outK (Ideal.ofBits .f32 0x3D000000#32) (Ideal.ofBits .f32 0xFF800000#32)
          (aX m c) (aW m c) (aB m c) (aWp m c) (aBp m c) (i 0) (i 1) (i 2) :=
  (congrFun ((W4_arr m ρ c 5).trans (Blocks1.arr5 (V3 m ρ) c)) i).trans (out_eq m ρ c (i 0) (i 1) (i 2))

end Cert.KernelIdeal.Glue

end
-- ==== Proof.RefSpec.lean ====
/-
  The reference program computes arrangement R of the attention specification.

  The reference is a chain of thirty array operations. Read one operation at a time, at explicit coordinates
  (batch b, query token r, key token m, feature d, fused column j), its stages are, in order:

    * the fused projection with its bias,  proj b s j = (∑ i, x b s i * W i j) + bias j ;
    * its three column ranges: queries (columns d), keys (columns 1024 + d), values (columns 2048 + d);
    * the score of query token r against key token m, the inner product of their query and key features;
    * the score divided by the constant q = 32;
    * the maximum of a row of divided scores, folded over the 2048 key tokens from −∞, then joined once more with −∞;
    * the weight  exp (divided score − that maximum) ;
    * the row's normaliser, zero plus the sum of its 2048 weights;
    * the normalised weight, weight / normaliser;
    * the attention result, the sum over key tokens of normalised weight times value feature;
    * the output projection with its bias,  (∑ d, attn b r d * Wp d e) + bp e.

  Each stage is one small lemma; each lemma identifies the index the operation reads its operand at with the
  coordinates above and then cites the lemma of the stage before. The last lemma is the whole result.
-/
import proofs.«132469_j61572651155726_2_alg».proof.Proof.Spec
import proofs.«132469_j61572651155726_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx
open Cert.ReferenceIdeal Cert.ReferenceIdeal.Read

namespace Cert.RefSpec

variable (x0 : (⟨S4x2048x1024, .f32⟩ : BufTy).Contents (Elt Ideal)) (x1 : (⟨S1024x3072, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-! ## The five argument arrays by coordinates, and the three constants -/

/-- The tokens: batch b, token s, feature d. -/
abbrev argX : Fin 4 → Fin 2048 → Fin 1024 → EReal := fun b s d => x0 (ix3 b s d)
/-- The fused projection's weights: input feature a, output column j. -/
abbrev argW : Fin 1024 → Fin 3072 → EReal := fun a j => x1 (ix2 a j)
/-- The fused projection's bias at column j. -/
abbrev argB : Fin 3072 → EReal := fun j => x2 (ix1 j)
/-- The output projection's weights: attention feature d, output feature e. -/
abbrev argWp : Fin 1024 → Fin 1024 → EReal := fun d e => x3 (ix2 d e)
/-- The output projection's bias at feature e. -/
abbrev argBp : Fin 1024 → EReal := fun e => x4 (ix1 e)

/-- The divisor of the scores, the constant 32. -/
abbrev q32 : EReal := Ideal.ofBits .f32 0x42000000#32
/-- The value the row maximum is folded from and joined with, −∞. -/
abbrev ninf : EReal := Ideal.ofBits .f32 0xFF800000#32
/-- The value the sum of the weights starts from, zero. -/
abbrev zer : EReal := Ideal.ofBits .f32 0x00000000#32

/-! ## The fused projection and its three column ranges -/

/-- The product of the tokens with the fused weights, plus the bias broadcast over batches and tokens, is the
    fused projection: at (b, s, j) the contraction runs over the input feature, and the bias is read at column j. -/
theorem proj_eq (b : Fin 4) (s : Fin 2048) (j : Fin 3072) :
    val_main_v3 (F := Ideal) x0 x1 x2 (ix3 b s j) = Cert.Spec.proj (argX x0) (argW x1) (argB x2) b s j := by
  have eb : idx_main_v1 (idx_main_v2 (ix3 b s j)) = ix1 j :=
    funext fun a => Fin.ext (by match a with | ⟨0, _⟩ => rfl)
  rw [val_main_v3_apply, val_main_v0_apply, val_main_v2_apply, val_main_v1_apply, eb]
  refine congrArg₂ (· + ·) (Finset.sum_congr rfl fun k _ => ?_) rfl
  have el : lidx_main_v0 (ix3 b s j) k = ix3 b s k :=
    funext fun a => Fin.ext (by match a with | ⟨0, _⟩ => rfl | ⟨1, _⟩ => rfl | ⟨2, _⟩ => rfl)
  have er : ridx_main_v0 (ix3 b s j) k = ix2 k j :=
    funext fun a => Fin.ext (by match a with | ⟨0, _⟩ => rfl | ⟨1, _⟩ => rfl)
  rw [el, er]

/-- The first column range of the fused projection holds the queries: feature d is column d. -/
theorem query_eq (b : Fin 4) (s : Fin 2048) (d : Fin 1024) :
    val_main_v4 (F := Ideal) x0 x1 x2 (ix3 b s d)
      = Cert.Spec.proj (argX x0) (argW x1) (argB x2) b s (Cert.Spec.colQ d) := by
  have e : idx_main_v4 (ix3 b s d) = ix3 b s (Cert.Spec.colQ d) :=
    funext fun a => Fin.ext (by match a with | ⟨0, _⟩ => rfl | ⟨1, _⟩ => rfl | ⟨2, _⟩ => rfl)
  rw [val_main_v4_apply, e, proj_eq]

/-- The second column range holds the keys: feature d is column 1024 + d. -/
theorem key_eq (b : Fin 4) (s : Fin 2048) (d : Fin 1024) :
    val_main_v5 (F := Ideal) x0 x1 x2 (ix3 b s d)
      = Cert.Spec.proj (argX x0) (argW x1) (argB x2) b s (Cert.Spec.colK d) := by
  have e : idx_main_v5 (ix3 b s d) = ix3 b s (Cert.Spec.colK d) :=
    funext fun a => Fin.ext (by match a with | ⟨0, _⟩ => rfl | ⟨1, _⟩ => rfl | ⟨2, _⟩ => rfl)
  rw [val_main_v5_apply, e, proj_eq]

/-- The third column range holds the values: feature d is column 2048 + d. -/
theorem value_eq (b : Fin 4) (s : Fin 2048) (d : Fin 1024) :
    val_main_v6 (F := Ideal) x0 x1 x2 (ix3 b s d)
      = Cert.Spec.proj (argX x0) (argW x1) (argB x2) b s (Cert.Spec.colV d) := by
  have e : idx_main_v6 (ix3 b s d) = ix3 b s (Cert.Spec.colV d) :=
    funext fun a => Fin.ext (by match a with | ⟨0, _⟩ => rfl | ⟨1, _⟩ => rfl | ⟨2, _⟩ => rfl)
  rw [val_main_v6_apply, e, proj_eq]

/-! ## Scores, their row maximum, and the weights -/

/-- The batched product of the queries with the keys, contracted over the feature, is the score of query token r
    against key token m of the same batch. -/
theorem score_eq (b : Fin 4) (r m : Fin 2048) :
    val_main_v7 (F := Ideal) x0 x1 x2 (ix3 b r m) = Cert.Spec.score (argX x0) (argW x1) (argB x2) b r m := by
  rw [val_main_v7_apply]
  unfold Cert.Spec.score
  refine Finset.sum_congr rfl fun k _ => ?_
  have el : lidx_main_v7 (ix3 b r m) k = ix3 b r k :=
    funext fun a => Fin.ext (by match a with | ⟨0, _⟩ => rfl | ⟨1, _⟩ => rfl | ⟨2, _⟩ => rfl)
  have er : ridx_main_v7 (ix3 b r m) k = ix3 b m k :=
    funext fun a => Fin.ext (by match a with | ⟨0, _⟩ => rfl | ⟨1, _⟩ => rfl | ⟨2, _⟩ => rfl)
  rw [el, er, query_eq, key_eq]

/-- Every score is divided by the same constant, 32. -/
theorem scaled_eq (b : Fin 4) (r m : Fin 2048) :
    val_main_v9 (F := Ideal) x0 x1 x2 (ix3 b r m)
      = Cert.Spec.sR (argX x0) (argW x1) (argB x2) q32 b r m := by
  rw [val_main_v9_apply, val_main_v8_apply, val_main_cst_apply, score_eq]
  rfl

/-- Putting key token m back into the pair (b, r) on the reduced axis gives the triple (b, r, m). -/
theorem lift_key (h : S4x2048x2048.Reduces [2] S4x2048) (b : Fin 4) (r m : Fin 2048) :
    h.lift (ix2 b r) m = ix3 b r m := by
  funext c
  apply Fin.ext
  match c with
  | ⟨0, _⟩ => rfl
  | ⟨1, _⟩ => rfl
  | ⟨2, _⟩ => rfl

/-- The reduction with a maximum body over the key axis, started from −∞, is at (b, r) the maximum of row r's
    divided scores folded from −∞: maximum is commutative and associative, so the fold over the indices that drop
    to (b, r) is the fold over the key tokens. -/
theorem rowMax_eq (b : Fin 4) (r : Fin 2048) :
    val_main_v10 (F := Ideal) x0 x1 x2 (ix2 b r)
      = Cert.Spec.rowMax ninf (Cert.Spec.sR (argX x0) (argW x1) (argB x2) q32 b r) := by
  have h : S4x2048x2048.Reduces [2] S4x2048 := by decide
  unfold val_main_v10
  rw [Host.reduce_eq_fold_single FloatOps.maximumf _ _ _ h _ (ix2 b r)]
  have hf : (val_main_v9 (F := Ideal) x0 x1 x2 ∘ h.lift (ix2 b r))
      = Cert.Spec.sR (argX x0) (argW x1) (argB x2) q32 b r := funext fun (m : Fin 2048) => by
    show val_main_v9 (F := Ideal) x0 x1 x2 (h.lift (ix2 b r) m) = _
    rw [lift_key h b r m, scaled_eq]
  exact congrArg (fun f => Finset.fold max ninf f (Finset.univ : Finset (Fin 2048))) hf

/-- The row maximum is joined once more with −∞. -/
theorem rowMaxJoined_eq (b : Fin 4) (r : Fin 2048) :
    val_main_v12 (F := Ideal) x0 x1 x2 (ix2 b r)
      = max ninf (Cert.Spec.rowMax ninf (Cert.Spec.sR (argX x0) (argW x1) (argB x2) q32 b r)) := by
  rw [val_main_v12_apply, val_main_v11_apply, val_main_cst_1_apply, rowMax_eq]
  rfl

/-- Broadcast back over the key axis, the joined maximum of row (b, r) is read at every (b, r, m). -/
theorem rowMaxBack_eq (b : Fin 4) (r m : Fin 2048) :
    val_main_v14 (F := Ideal) x0 x1 x2 (ix3 b r m)
      = max ninf (Cert.Spec.rowMax ninf (Cert.Spec.sR (argX x0) (argW x1) (argB x2) q32 b r)) := by
  have e : idx_main_v13 (idx_main_v14 (ix3 b r m)) = ix2 b r :=
    funext fun a => Fin.ext (by match a with | ⟨0, _⟩ => rfl | ⟨1, _⟩ => rfl)
  rw [val_main_v14_apply, val_main_v13_apply, e, rowMaxJoined_eq]

/-- The weight of key token m for query token r: the exponential of the divided score minus the row's maximum. -/
abbrev weight (b : Fin 4) (r m : Fin 2048) : EReal :=
  Ideal.exp (Cert.Spec.sR (argX x0) (argW x1) (argB x2) q32 b r m
    - max ninf (Cert.Spec.rowMax ninf (Cert.Spec.sR (argX x0) (argW x1) (argB x2) q32 b r)))

/-- The difference of the divided score and the broadcast maximum, exponentiated, is the weight. -/
theorem weight_eq (b : Fin 4) (r m : Fin 2048) :
    val_main_v16 (F := Ideal) x0 x1 x2 (ix3 b r m) = weight x0 x1 x2 b r m := by
  rw [val_main_v16_apply, val_main_v15_apply, scaled_eq, rowMaxBack_eq]
  rfl

/-! ## The normaliser, the attention result, the output projection -/

/-- The sum over the key axis, started from zero, is at (b, r) zero plus the sum of row r's 2048 weights. -/
theorem norm_eq (b : Fin 4) (r : Fin 2048) :
    val_main_v17 (F := Ideal) x0 x1 x2 (ix2 b r) = zer + ∑ m : Fin 2048, weight x0 x1 x2 b r m := by
  rw [val_main_v17_apply, val_main_cst_2_apply]
  refine congrArg₂ (· + ·) rfl (Finset.sum_congr rfl fun m _ => ?_)
  have e : idx_main_v17 (ix2 b r) m = ix3 b r m :=
    funext fun a => Fin.ext (by match a with | ⟨0, _⟩ => rfl | ⟨1, _⟩ => rfl | ⟨2, _⟩ => rfl)
  rw [e, weight_eq]

/-- Broadcast back over the key axis, the normaliser of row (b, r) is read at every (b, r, m). -/
theorem normBack_eq (b : Fin 4) (r m : Fin 2048) :
    val_main_v19 (F := Ideal) x0 x1 x2 (ix3 b r m) = zer + ∑ m' : Fin 2048, weight x0 x1 x2 b r m' := by
  have e : idx_main_v18 (idx_main_v19 (ix3 b r m)) = ix2 b r :=
    funext fun a => Fin.ext (by match a with | ⟨0, _⟩ => rfl | ⟨1, _⟩ => rfl)
  rw [val_main_v19_apply, val_main_v18_apply, e, norm_eq]

/-- Each weight is divided by its row's normaliser. -/
theorem normWeight_eq (b : Fin 4) (r m : Fin 2048) :
    val_main_v20 (F := Ideal) x0 x1 x2 (ix3 b r m)
      = Ideal.div (weight x0 x1 x2 b r m) (zer + ∑ m' : Fin 2048, weight x0 x1 x2 b r m') := by
  rw [val_main_v20_apply, weight_eq, normBack_eq]
  rfl

/-- The batched product of the normalised weights with the values, contracted over the key token, is the
    attention result of arrangement R. -/
theorem attn_eq (b : Fin 4) (r : Fin 2048) (d : Fin 1024) :
    val_main_v21 (F := Ideal) x0 x1 x2 (ix3 b r d)
      = Cert.Spec.attnR (argX x0) (argW x1) (argB x2) q32 ninf zer b r d := by
  rw [val_main_v21_apply]
  unfold Cert.Spec.attnR
  refine Finset.sum_congr rfl fun m _ => ?_
  have el : lidx_main_v21 (ix3 b r d) m = ix3 b r m :=
    funext fun a => Fin.ext (by match a with | ⟨0, _⟩ => rfl | ⟨1, _⟩ => rfl | ⟨2, _⟩ => rfl)
  have er : ridx_main_v21 (ix3 b r d) m = ix3 b m d :=
    funext fun a => Fin.ext (by match a with | ⟨0, _⟩ => rfl | ⟨1, _⟩ => rfl | ⟨2, _⟩ => rfl)
  rw [el, er, normWeight_eq, value_eq]

/-- The product of the attention result with the output weights, plus the output bias broadcast over batches
    and tokens, is the whole result of arrangement R at (b, r, e). -/
theorem out_eq (b : Fin 4) (r : Fin 2048) (e : Fin 1024) :
    val_main_v25 (F := Ideal) x0 x1 x2 x3 x4 (ix3 b r e)
      = Cert.Spec.outR q32 ninf zer (argX x0) (argW x1) (argB x2) (argWp x3) (argBp x4) b r e := by
  have eb : idx_main_v23 (idx_main_v24 (ix3 b r e)) = ix1 e :=
    funext fun a => Fin.ext (by match a with | ⟨0, _⟩ => rfl)
  rw [val_main_v25_apply, val_main_v22_apply, val_main_v24_apply, val_main_v23_apply, eb]
  refine congrArg₂ (· + ·) (Finset.sum_congr rfl fun d _ => ?_) rfl
  have el : lidx_main_v22 (ix3 b r e) d = ix3 b r d :=
    funext fun a => Fin.ext (by match a with | ⟨0, _⟩ => rfl | ⟨1, _⟩ => rfl | ⟨2, _⟩ => rfl)
  have er : ridx_main_v22 (ix3 b r e) d = ix2 d e :=
    funext fun a => Fin.ext (by match a with | ⟨0, _⟩ => rfl | ⟨1, _⟩ => rfl)
  rw [el, er, attn_eq]

/-- The reference program's result, at every index, is arrangement R of the specification at the program's three
    constants (32, −∞, zero) and the five argument arrays read by coordinates. -/
theorem val_eq
    (x0 : (⟨Cert.ReferenceIdeal.S4x2048x1024, .f32⟩ : BufTy).Contents (Elt Ideal)) (x1 : (⟨Cert.ReferenceIdeal.S1024x3072, .f32⟩ : BufTy).Contents (Elt Ideal))
    (x2 : (⟨Cert.ReferenceIdeal.S3072, .f32⟩ : BufTy).Contents (Elt Ideal)) (x3 : (⟨Cert.ReferenceIdeal.S1024x1024, .f32⟩ : BufTy).Contents (Elt Ideal))
    (x4 : (⟨Cert.ReferenceIdeal.S1024, .f32⟩ : BufTy).Contents (Elt Ideal)) (i : Cert.ReferenceIdeal.S4x2048x1024.Idx) :
    Cert.ReferenceIdeal.Read.val_main_v25 (F := Ideal) x0 x1 x2 x3 x4 i
      = Cert.Spec.outR (Ideal.ofBits .f32 0x42000000#32) (Ideal.ofBits .f32 0xFF800000#32) (Ideal.ofBits .f32 0x00000000#32)
          (fun b s d => x0 (ix3 b s d)) (fun a j => x1 (ix2 a j)) (fun j => x2 (ix1 j)) (fun d e => x3 (ix2 d e)) (fun e => x4 (ix1 e))
          (i 0) (i 1) (i 2) :=
  (congrArg (val_main_v25 (F := Ideal) x0 x1 x2 x3 x4) (eq_ix3 i)).trans (out_eq x0 x1 x2 x3 x4 (i 0) (i 1) (i 2))

end Cert.RefSpec

end
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.Law.lean ====
/-
  The two arrangements of the attention agree on real data.

  Arrangement K scales the scores by c, subtracts the row maximum, exponentiates, forms the weighted sum of the
  values with the unnormalised weights and divides that sum once by the total weight. Arrangement R divides the
  scores by q, subtracts the row maximum (joined once more with -∞), exponentiates, divides every weight by
  (0 + the total weight) and only then forms the weighted sum of the values.

  In the extended reals multiplication does not distribute over addition at the infinities, so the identity
      (∑ m, e m * v m) / L = ∑ m, (e m / L) * v m
  is not available there as it stands. The proof therefore first shows that every quantity involved is a real
  number when x, W and the bias are real: the fused projection, hence the scores, hence the scaled scores; the
  row maximum of 2048 reals folded from -∞ is a real; the exponentials are real and positive, so their sum L is
  a positive real and both divisions are multiplications by the real 1/L. What is left is the identity above in
  the field of real numbers.

  The scalings agree because c denotes 1/32 and q denotes 32: dividing by the real 32 is multiplying by 1/32.
  No finiteness of the output projection's weights is needed: both results apply the same output projection to
  the two attention arrays, which are equal.
-/
import proofs.«132469_j61572651155726_2_alg».proof.Proof.Spec
import proofs.«132469_j61572651155726_2_alg».proof.Proof.LibERealSums
import Idealize.ShloMosaic.PureOps.Ideal
import Idealize.ShloMosaic.PureOps.Ideal.Laws

noncomputable section

open scoped BigOperators
open Idealize.ShloMosaic
open Cert.Spec Cert.Lib.ERealSums

namespace Cert.Law

/-! ### The four literals -/

/-- The word 0x3D000000 (sign +, exponent field 122, significand field 0) denotes 2^23 * 2^(122-127-23) = 1/32. -/
theorem ofBits_c : Ideal.ofBits .f32 0x3D000000#32 = (((1 / 32 : ℝ) : ℝ) : EReal) := by
  simp [Ideal.ofBits, Ideal.ieee, -EReal.coe_mul]; norm_num

/-- The word 0x42000000 (sign +, exponent field 132, significand field 0) denotes 2^23 * 2^(132-127-23) = 32. -/
theorem ofBits_q : Ideal.ofBits .f32 0x42000000#32 = ((32 : ℝ) : EReal) := by
  simp [Ideal.ofBits, Ideal.ieee, -EReal.coe_mul]; norm_num

/-- The word 0xFF800000 (sign -, exponent field all ones, significand field 0) denotes -∞. -/
theorem ofBits_ninf : Ideal.ofBits .f32 0xFF800000#32 = (⊥ : EReal) := by
  simp [Ideal.ofBits, Ideal.ieee]

/-! ### One row of real scores against one column of real values -/

/-- For a row s of 2048 real scores and a column v of 2048 real values: the weighted sum of the values with
    the weights exp (s m - max s), divided once by the total weight, equals the sum of the values weighted
    with the normalised weights. The maximum M is a real, the total weight L a positive real, and the claim is
    (∑ m, e m * v m) * (1/L) = ∑ m, (e m * (1/L)) * v m among real numbers. -/
theorem row_core (s v : Fin 2048 → ℝ) :
    Ideal.div
        (∑ m : Fin 2048, Ideal.exp ((s m : EReal) - rowMax ⊥ (fun k => (s k : EReal))) * (v m : EReal))
        (∑ m : Fin 2048, Ideal.exp ((s m : EReal) - rowMax ⊥ (fun k => (s k : EReal))))
      = ∑ m : Fin 2048,
          Ideal.div (Ideal.exp ((s m : EReal) - max ⊥ (rowMax ⊥ (fun k => (s k : EReal)))))
              (0 + ∑ m' : Fin 2048, Ideal.exp ((s m' : EReal) - max ⊥ (rowMax ⊥ (fun k => (s k : EReal)))))
            * (v m : EReal) := by
  obtain ⟨M, hM⟩ := fold_max_real (Finset.univ : Finset (Fin 2048)) Finset.univ_nonempty s
  have hM' : rowMax ⊥ (fun k => (s k : EReal)) = (M : EReal) := hM
  rw [hM', max_bot_left, zero_add]
  have he : ∀ m, Ideal.exp ((s m : EReal) - (M : EReal)) = ((Real.exp (s m - M) : ℝ) : EReal) := by
    intro m; rw [← EReal.coe_sub, Ideal.exp_coe]
  have hL : (∑ m : Fin 2048, Real.exp (s m - M)) ≠ 0 :=
    ne_of_gt (Finset.sum_pos (fun m _ => Real.exp_pos _) Finset.univ_nonempty)
  simp only [he, ← EReal.coe_mul, coe_sum_real, Ideal.div_coe hL]
  rw [EReal.coe_eq_coe_iff, Finset.sum_mul]
  exact Finset.sum_congr rfl (fun m _ => by ring)

/-! ### On real data the projection and the scores are real -/

section
variable (x : Fin 4 → Fin 2048 → Fin 1024 → ℝ) (W : Fin 1024 → Fin 3072 → ℝ) (bias : Fin 3072 → ℝ)

/-- The fused projection of real data, as a real number. -/
def projRe (b : Fin 4) (s : Fin 2048) (j : Fin 3072) : ℝ := (∑ i : Fin 1024, x b s i * W i j) + bias j

/-- The score of real data, as a real number. -/
def scoreRe (b : Fin 4) (r m : Fin 2048) : ℝ :=
  ∑ j : Fin 1024, projRe x W bias b r (colQ j) * projRe x W bias b m (colK j)

/-- The fused projection of coerced real arrays is the coercion of the real projection: a finite sum of
    products of reals plus a real. -/
theorem proj_coe (b : Fin 4) (s : Fin 2048) (j : Fin 3072) :
    proj (fun b s i => (x b s i : EReal)) (fun i j => (W i j : EReal)) (fun j => (bias j : EReal)) b s j
      = ((projRe x W bias b s j : ℝ) : EReal) := by
  simp only [proj, projRe, ← EReal.coe_mul, coe_sum_real, ← EReal.coe_add]

/-- The score of coerced real arrays is the coercion of the real score. -/
theorem score_coe (b : Fin 4) (r m : Fin 2048) :
    score (fun b s i => (x b s i : EReal)) (fun i j => (W i j : EReal)) (fun j => (bias j : EReal)) b r m
      = ((scoreRe x W bias b r m : ℝ) : EReal) := by
  simp only [score, scoreRe, proj_coe, ← EReal.coe_mul, coe_sum_real]

/-- Arrangement K's scaled row at c = 1/32: the real scores times 1/32. -/
theorem sK_coe (b : Fin 4) (r : Fin 2048) :
    sK (fun b s i => (x b s i : EReal)) (fun i j => (W i j : EReal)) (fun j => (bias j : EReal))
        (((1 / 32 : ℝ) : ℝ) : EReal) b r
      = fun m => ((scoreRe x W bias b r m * (1 / 32) : ℝ) : EReal) := by
  funext m
  rw [sK, score_coe, ← EReal.coe_mul]

/-- Arrangement R's divided row at q = 32: dividing by the nonzero real 32 is multiplying by 1/32, so it is the
    same row as arrangement K's. -/
theorem sR_coe (b : Fin 4) (r : Fin 2048) :
    sR (fun b s i => (x b s i : EReal)) (fun i j => (W i j : EReal)) (fun j => (bias j : EReal))
        ((32 : ℝ) : EReal) b r
      = fun m => ((scoreRe x W bias b r m * (1 / 32) : ℝ) : EReal) := by
  funext m
  rw [sR, score_coe, Ideal.div_coe (by norm_num : (32 : ℝ) ≠ 0), ← EReal.coe_mul]

/-- The two attention arrays agree on coerced real data, entry by entry: one row of real scaled scores against
    one column of real values. -/
theorem attnK_eq_attnR_coe (b : Fin 4) (r : Fin 2048) (d : Fin 1024) :
    attnK (fun b s i => (x b s i : EReal)) (fun i j => (W i j : EReal)) (fun j => (bias j : EReal))
        (((1 / 32 : ℝ) : ℝ) : EReal) ⊥ b r d
      = attnR (fun b s i => (x b s i : EReal)) (fun i j => (W i j : EReal)) (fun j => (bias j : EReal))
        ((32 : ℝ) : EReal) ⊥ 0 b r d := by
  simp only [attnK, attnR, sK_coe, sR_coe, proj_coe]
  exact row_core (fun m => scoreRe x W bias b r m * (1 / 32)) (fun m => projRe x W bias b m (colV d))

end

/-! ### The whole results -/

/-- On real x, W and bias the result in arrangement K at the literals c = 1/32, -∞ equals the result in
    arrangement R at the literals q = 32, -∞, 0: the attention arrays agree entry by entry and both results
    apply the same output projection to them. -/
theorem outK_eq_outR
    (x : Fin 4 → Fin 2048 → Fin 1024 → EReal) (W : Fin 1024 → Fin 3072 → EReal) (bias : Fin 3072 → EReal)
    (Wp : Fin 1024 → Fin 1024 → EReal) (bp : Fin 1024 → EReal)
    (hx : ∀ b s i, ∃ r : ℝ, x b s i = (r : EReal)) (hW : ∀ i j, ∃ r : ℝ, W i j = (r : EReal))
    (hbias : ∀ j, ∃ r : ℝ, bias j = (r : EReal)) :
    Cert.Spec.outK (Ideal.ofBits .f32 0x3D000000#32) (Ideal.ofBits .f32 0xFF800000#32) x W bias Wp bp
      = Cert.Spec.outR (Ideal.ofBits .f32 0x42000000#32) (Ideal.ofBits .f32 0xFF800000#32)
          (Ideal.ofBits .f32 0x00000000#32) x W bias Wp bp := by
  choose x' hx' using hx
  choose W' hW' using hW
  choose bias' hbias' using hbias
  obtain rfl : x = fun b s i => (x' b s i : EReal) := by funext b s i; exact hx' b s i
  obtain rfl : W = fun i j => (W' i j : EReal) := by funext i j; exact hW' i j
  obtain rfl : bias = fun j => (bias' j : EReal) := by funext j; exact hbias' j
  rw [ofBits_c, ofBits_q, ofBits_ninf, Ideal.ofBits_zero_f32]
  have h : attnK (fun b s i => (x' b s i : EReal)) (fun i j => (W' i j : EReal)) (fun j => (bias' j : EReal))
        (((1 / 32 : ℝ) : ℝ) : EReal) ⊥
      = attnR (fun b s i => (x' b s i : EReal)) (fun i j => (W' i j : EReal)) (fun j => (bias' j : EReal))
        ((32 : ℝ) : EReal) ⊥ 0 := by
    funext b r d
    exact attnK_eq_attnR_coe x' W' bias' b r d
  unfold outK outR
  rw [h]

end Cert.Law

end
-- ==== Proof.LibFiniteReal.lean ====
/-
  One element of an "every entry is finite" test, read on the extended reals.

  The test compares the absolute value `max x (-x)` with the f32 pattern of `+∞`, strictly. That pattern denotes the
  top element; the absolute value of `-∞` is `+∞`; so the test passes exactly at the reals. Also: the rank-0 shape
  has a single index (what reading a reduction over all axes at "its one result" needs).
-/
import Idealize.ShloMosaic.PureOps.Ideal.Laws

noncomputable section

namespace Cert.Lib.FiniteReal

open Idealize.ShloMosaic

/-- The f32 pattern `0x7F800000` denotes `+∞`. -/
theorem ofBits_inf_f32 : Ideal.ofBits .f32 0x7F800000#32 = ⊤ := by simp [Ideal.ofBits, Ideal.ieee]

/-- An extended real whose absolute value is strictly below the pattern of `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- Conversely every real passes the test. -/
theorem abs_lt_inf_of_real (r : ℝ) :
    Ideal.cmp .olt (max (r : EReal) (-(r : EReal))) (Ideal.ofBits .f32 0x7F800000#32) = 1#1 := by
  rw [ofBits_inf_f32]
  have h : max (r : EReal) (-(r : EReal)) < ⊤ := max_lt (EReal.coe_lt_top r) (by rw [← EReal.coe_neg]; exact EReal.coe_lt_top _)
  simp [Ideal.cmp, h]

/-- The rank-0 shape has exactly one index. -/
theorem subsingleton_idx0 : Subsingleton (⟨0, ![]⟩ : Shape).Idx := ⟨fun _ _ => funext fun d => d.elim0⟩

end Cert.Lib.FiniteReal

end
-- ==== Proof.Finite.lean ====
/-
  The precondition of the certificate, read back: every entry of the five argument arrays is a real number.

  The precondition is the conjunction, over the five arrays, of "every entry x satisfies |x| < +∞": each array's
  test is a reduction by "and", from the constant 1 and over all axes, of the entrywise strict comparison of the
  absolute value max x (-x) with the f32 pattern of +∞, and the five results are joined by "and". Its claim is
  that the one entry of the rank-0 result is 1.

  A conjunction of one-bit words is 1 exactly when both words are 1, so each array's reduction is 1. A reduction
  by "and" over all axes that came out 1 met a 1 at every index of its operand. And an extended real whose
  absolute value is strictly below +∞ is neither +∞ nor -∞ (whose absolute value is +∞ too): it is a real.
-/
import proofs.«132469_j61572651155726_2_alg».proof.Pre_finite_inputs
import proofs.«132469_j61572651155726_2_alg».proof.Proof.LibFiniteReal
import Idealize.ShloMosaic.Lib.ReduceAll
import Idealize.ShloMosaic.Lib.ValueIdx
import Idealize.ShloMosaic.PureOps.Ideal.Laws

noncomputable section

open Idealize.ShloMosaic
open Cert.Pre_finite_inputs

namespace Cert.Finite

/-- One array's test. If the reduction by "and", from 1 and over all axes, of the entrywise comparison
    |x i| < (the pattern of +∞, broadcast from a rank-0 constant) is 1 at the one index of its rank-0 result,
    then every entry of x is a real: the reduction met a 1 at every index i, and there the comparison reads
    max (x i) (-(x i)) < +∞. -/
theorem real_of_all {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := by
  intro i
  haveI : Subsingleton S_.Idx := Cert.Lib.FiniteReal.subsingleton_idx0
  have hi := Host.reduce_andi_all _ _ hr hu ValueIdx.ix0 e i
  exact Cert.Lib.FiniteReal.real_of_abs_lt_inf (x i) hi

/-- The precondition gives: every entry of each of the five argument arrays is a real number. -/
theorem real_of_pre [Facts]
    (x0 : FVec Ideal S4x2048x1024 .f32) (x1 : FVec Ideal S1024x3072 .f32) (x2 : FVec Ideal S3072 .f32)
    (x3 : FVec Ideal S1024x1024 .f32) (x4 : FVec Ideal S1024 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have e := congrFun h ValueIdx.ix0
  dsimp only [fn, fn_part1] at e
  simp only [andi, IntOp.andi_eq_one] at e
  obtain ⟨⟨⟨⟨e0, e1⟩, e2⟩, e3⟩, e4⟩ := e
  exact ⟨real_of_all _ _ _ x0 e0, real_of_all _ _ _ x1 e1, real_of_all _ _ _ x2 e2, real_of_all _ _ _ x3 e3,
    real_of_all _ _ _ x4 e4⟩

end Cert.Finite

end
-- ==== Proof.lean ====
/-
  The proof of the certificate's claim.

  The kernel is self-attention with a fused query/key/value projection and an output projection, computed by two
  Pallas kernels: the first forms the fused projection of 512 token rows at a time and stores its three column
  ranges; the second, for 256 query rows of one batch at a time, forms the scaled scores against all 2048 keys of
  the batch, the unnormalised softmax weights, their weighted sum of the values divided ONCE by the sum of the
  weights, and the output projection. The reference is the textbook jnp program: it divides the scores by 32 where
  the kernel multiplies by 1/32 (the same dyadic number), normalises every softmax weight BEFORE the weighted sum,
  and joins the row maximum once more with -inf.

  At the exact values both are one function of the five argument arrays: the kernel program's result array is
  arrangement K of the specification (Glue, over the generated frame run with the result named: RunValue), the
  reference's is arrangement R (RefSpec, over the generated run), and the two arrangements agree on real data (Law) —
  moving the division by the sum of the weights across the weighted sum is distributivity, which the extended reals
  lack at infinities, so the precondition is used: every entry of every argument array is a real number (Finite).

  The three frame claims are the generated frames (the reference's is its generated run with the result dropped);
  the ideal pass rewrote nothing, so the preservation claim is trivial.
-/
import proofs.«132469_j61572651155726_2_alg».proof.Defs
import proofs.«132469_j61572651155726_2_alg».proof.Proof.Gen.Kernel
import proofs.«132469_j61572651155726_2_alg».proof.Proof.Gen.Kernel.Skeleton
import proofs.«132469_j61572651155726_2_alg».proof.Proof.Gen.Kernel.Launch
import proofs.«132469_j61572651155726_2_alg».proof.Proof.Gen.Kernel.Points
import proofs.«132469_j61572651155726_2_alg».proof.Proof.Gen.Kernel.Frame
import proofs.«132469_j61572651155726_2_alg».proof.Proof.Gen.KernelIdeal
import proofs.«132469_j61572651155726_2_alg».proof.Proof.Gen.KernelIdeal.Skeleton
import proofs.«132469_j61572651155726_2_alg».proof.Proof.Gen.KernelIdeal.Launch
import proofs.«132469_j61572651155726_2_alg».proof.Proof.Gen.KernelIdeal.Points
import proofs.«132469_j61572651155726_2_alg».proof.Proof.Gen.KernelIdeal.Frame
import proofs.«132469_j61572651155726_2_alg».proof.Proof.Gen.ReferenceIdeal
import proofs.«132469_j61572651155726_2_alg».proof.Proof.Gen.ReferenceIdeal.Run
import proofs.«132469_j61572651155726_2_alg».proof.Proof.Gen.ReferenceIdeal.Read
import proofs.«132469_j61572651155726_2_alg».proof.Proof.Gen.Pre_finite_inputs
import proofs.«132469_j61572651155726_2_alg».proof.Proof.RunValue
import proofs.«132469_j61572651155726_2_alg».proof.Proof.Glue
import proofs.«132469_j61572651155726_2_alg».proof.Proof.RefSpec
import proofs.«132469_j61572651155726_2_alg».proof.Proof.Law
import proofs.«132469_j61572651155726_2_alg».proof.Proof.Finite
import Idealize.ShloMosaic.Adequacy
import Idealize.ShloMosaic.Init

noncomputable section

namespace Cert.Proof

open Idealize.ShloMosaic Idealize.SL.Sem Idealize.ShloMosaic.ValueIdx

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The idealized reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result array at arrangement K of the arguments: the kernel by its run and
    the reading of its two regions, the reference by its run, its reading as arrangement R, and the law between the
    arrangements on the real entries the precondition provides. -/
theorem algebraic : Cert.algebraic_KernelIdeal_ReferenceIdeal := by
  intro m ρ m' ρ' hpre hagree
  refine ⟨fun c => fun (i : Cert.KernelIdeal.S4x2048x1024.Idx) =>
      Cert.Spec.outK (Ideal.ofBits .f32 0x3D000000#32) (Ideal.ofBits .f32 0xFF800000#32)
        (Cert.KernelIdeal.Glue.aX m c) (Cert.KernelIdeal.Glue.aW m c) (Cert.KernelIdeal.Glue.aB m c)
        (Cert.KernelIdeal.Glue.aWp m c) (Cert.KernelIdeal.Glue.aBp m c) (i 0) (i 1) (i 2), ?_, ?_⟩
  · exact (θ_run Cert.KernelIdeal.defs _ _).mono
      (fun r h c => ⟨(h c).1.trans (funext fun i => Cert.KernelIdeal.Glue.result_eq m ρ c i), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v25_eq, (hagree c).1, (hagree c).2.1, (hagree c).2.2.1, (hagree c).2.2.2.1,
      (hagree c).2.2.2.2]
    obtain ⟨h0, h1, h2, h3, h4⟩ := Cert.Finite.real_of_pre _ _ _ _ _ (hpre c)
    funext i
    refine (Cert.RefSpec.val_eq _ _ _ _ _ i).trans ?_
    exact (congrFun (congrFun (congrFun (Cert.Law.outK_eq_outR (Cert.KernelIdeal.Glue.aX m c) (Cert.KernelIdeal.Glue.aW m c)
      (Cert.KernelIdeal.Glue.aB m c) (Cert.KernelIdeal.Glue.aWp m c) (Cert.KernelIdeal.Glue.aBp m c)
      (fun b s k => h0 (ix3 b s k)) (fun a j => h1 (ix2 a j)) (fun j => h2 (ix1 j))) (i 0)) (i 1)) (i 2)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
